-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S20000x128 .f32) (main_arg1 : IVec S2x320000 32) (main_arg2 : FVec F S128x256 .f32) (main_arg3 : FVec F S256 .f32) (main_arg4 : FVec F S256x256 .f32) (main_arg5 : FVec F S256 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x1 : Shape := ⟨2, ![20000, 1]⟩
abbrev S20000x256 : Shape := ⟨2, ![20000, 256]⟩
abbrev S2000x128 : Shape := ⟨2, ![2000, 128]⟩
abbrev S2000x1 : Shape := ⟨2, ![2000, 1]⟩
abbrev S2000x256 : Shape := ⟨2, ![2000, 256]⟩
abbrev S340000x256 : Shape := ⟨2, ![340000, 256]⟩
abbrev S1x256 : Shape := ⟨2, ![1, 256]⟩

abbrev nBuf : Space → Nat
  | .hbm => 59
  | .vmem => 22
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S20000, .i32⟩
  | .hbm, ⟨7, _⟩ => ⟨S1x320000, .i32⟩
  | .hbm, ⟨8, _⟩ => ⟨S320000, .i32⟩
  | .hbm, ⟨9, _⟩ => ⟨S340000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S_, .f32⟩
  | .hbm, ⟨14, _⟩ => ⟨S340000, .f32⟩
  | .hbm, ⟨15, _⟩ => ⟨S_, .f32⟩
  | .hbm, ⟨16, _⟩ => ⟨S20000, .f32⟩
  | .hbm, ⟨17, _⟩ => ⟨S340000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S20000x1, .f32⟩
  | .hbm, ⟨28, _⟩ => ⟨S20000x256, .f32⟩
  | .hbm, ⟨29, _⟩ => ⟨S_, .i32⟩
  | .hbm, ⟨30, _⟩ => ⟨S340000, .i32⟩
  | .hbm, ⟨31, _⟩ => ⟨S340000, .i1⟩
  | .hbm, ⟨32, _⟩ => ⟨S_, .i32⟩
  | .hbm, ⟨33, _⟩ => ⟨S340000, .i32⟩
  | .hbm, ⟨34, _⟩ => ⟨S340000, .i32⟩
  | .hbm, ⟨35, _⟩ => ⟨S340000, .i32⟩
  | .hbm, ⟨36, _⟩ => ⟨S340000x1, .i32⟩
  | .hbm, ⟨37, _⟩ => ⟨S340000x256, .f32⟩
  | .hbm, ⟨38, _⟩ => ⟨S_, .f32⟩
  | .hbm, ⟨39, _⟩ => ⟨S20000x256, .f32⟩
  | .hbm, ⟨40, _⟩ => ⟨S340000x1, .i32⟩
  | .hbm, ⟨41, _⟩ => ⟨S20000x256, .f32⟩
  | .hbm, ⟨42, _⟩ => ⟨S1x256, .f32⟩
  | .hbm, ⟨43, _⟩ => ⟨S20000x256, .f32⟩
  | .hbm, ⟨44, _⟩ => ⟨S_, .i32⟩
  | .hbm, ⟨45, _⟩ => ⟨S340000, .i32⟩
  | .hbm, ⟨46, _⟩ => ⟨S340000, .i1⟩
  | .hbm, ⟨47, _⟩ => ⟨S_, .i32⟩
  | .hbm, ⟨48, _⟩ => ⟨S340000, .i32⟩
  | .hbm, ⟨49, _⟩ => ⟨S340000, .i32⟩
  | .hbm, ⟨50, _⟩ => ⟨S340000, .i32⟩
  | .hbm, ⟨51, _⟩ => ⟨S340000x1, .i32⟩
  | .hbm, ⟨52, _⟩ => ⟨S340000x256, .f32⟩
  | .hbm, ⟨53, _⟩ => ⟨S_, .f32⟩
  | .hbm, ⟨54, _⟩ => ⟨S20000x256, .f32⟩
  | .hbm, ⟨55, _⟩ => ⟨S340000x1, .i32⟩
  | .hbm, ⟨56, _⟩ => ⟨S20000x256, .f32⟩
  | .hbm, ⟨57, _⟩ => ⟨S1x256, .f32⟩
  | .hbm, ⟨58, _⟩ => ⟨S20000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S2000x1, .f32⟩
  | .local _ .vmem, ⟨11, _⟩ => ⟨S2000x1, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  shapeCasts_S20000_S20000x1 : S20000.ShapeCasts S20000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S20000x256 : S_.BroadcastsInDim S20000x256 (![] : Fin 0 → Fin S20000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S20000_S340000x1_S340000_n_0_0_1_wf : ScatterDims.WF S20000 S340000x1 S340000 [] [0] [0] 1
  dot_S2000x128_S128x256_S2000x256_1_0_0_1_n_n_wf : DotDims.WF S2000x128 S128x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .f32 = 32 ∨ (Rect.block (s := S20000x256) S2000x256.size (cc2_transform_3 i) (hinb2_3 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x256 : Shape := ⟨2, ![20000, 256]⟩
abbrev S340000x256 : Shape := ⟨2, ![340000, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S20000, .i32⟩
  | .hbm, ⟨7, _⟩ => ⟨S1x320000, .i32⟩
  | .hbm, ⟨8, _⟩ => ⟨S320000, .i32⟩
  | .hbm, ⟨9, _⟩ => ⟨S340000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S_, .f32⟩
  | .hbm, ⟨14, _⟩ => ⟨S340000, .f32⟩
  | .hbm, ⟨15, _⟩ => ⟨S_, .f32⟩
  | .hbm, ⟨16, _⟩ => ⟨S20000, .f32⟩
  | .hbm, ⟨17, _⟩ => ⟨S340000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S340000, .i32⟩
  | .hbm, ⟨29, _⟩ => ⟨S340000, .i1⟩
  | .hbm, ⟨30, _⟩ => ⟨S_, .i32⟩
  | .hbm, ⟨31, _⟩ => ⟨S340000, .i32⟩
  | .hbm, ⟨32, _⟩ => ⟨S340000, .i32⟩
  | .hbm, ⟨33, _⟩ => ⟨S340000, .i32⟩
  | .hbm, ⟨34, _⟩ => ⟨S340000x1, .i32⟩
  | .hbm, ⟨35, _⟩ => ⟨S340000, .f32⟩
  | .hbm, ⟨36, _⟩ => ⟨S_, .i32⟩
  | .hbm, ⟨37, _⟩ => ⟨S340000, .i32⟩
  | .hbm, ⟨38, _⟩ => ⟨S340000, .i1⟩
  | .hbm, ⟨39, _⟩ => ⟨S_, .i32⟩
  | .hbm, ⟨40, _⟩ => ⟨S340000, .i32⟩
  | .hbm, ⟨41, _⟩ => ⟨S340000, .i32⟩
  | .hbm, ⟨42, _⟩ => ⟨S340000, .i32⟩
  | .hbm, ⟨43, _⟩ => ⟨S340000x1, .i32⟩
  | .hbm, ⟨44, _⟩ => ⟨S340000, .f32⟩
  | .hbm, ⟨45, _⟩ => ⟨S340000, .f32⟩
  | .hbm, ⟨46, _⟩ => ⟨S20000x256, .f32⟩
  | .hbm, ⟨47, _⟩ => ⟨S_, .i32⟩
  | .hbm, ⟨48, _⟩ => ⟨S340000, .i32⟩
  | .hbm, ⟨49, _⟩ => ⟨S340000, .i1⟩
  | .hbm, ⟨50, _⟩ => ⟨S_, .i32⟩
  | .hbm, ⟨51, _⟩ => ⟨S340000, .i32⟩
  | .hbm, ⟨52, _⟩ => ⟨S340000, .i32⟩
  | .hbm, ⟨53, _⟩ => ⟨S340000, .i32⟩
  | .hbm, ⟨54, _⟩ => ⟨S340000x1, .i32⟩
  | .hbm, ⟨55, _⟩ => ⟨S340000x256, .f32⟩
  | .hbm, ⟨56, _⟩ => ⟨S340000x1, .f32⟩
  | .hbm, ⟨57, _⟩ => ⟨S340000x256, .f32⟩
  | .hbm, ⟨58, _⟩ => ⟨S340000x256, .f32⟩
  | .hbm, ⟨59, _⟩ => ⟨S_, .f32⟩
  | .hbm, ⟨60, _⟩ => ⟨S20000x256, .f32⟩
  | .hbm, ⟨61, _⟩ => ⟨S340000x1, .i32⟩
  | .hbm, ⟨62, _⟩ => ⟨S20000x256, .f32⟩
  | .hbm, ⟨63, _⟩ => ⟨S1x256, .f32⟩
  | .hbm, ⟨64, _⟩ => ⟨S20000x256, .f32⟩
  | .hbm, ⟨65, _⟩ => ⟨S20000x256, .f32⟩
  | .hbm, ⟨66, _⟩ => ⟨S_, .f32⟩
  | .hbm, ⟨67, _⟩ => ⟨S20000x256, .f32⟩
  | .hbm, ⟨68, _⟩ => ⟨S20000x256, .f32⟩
  | .hbm, ⟨69, _⟩ => ⟨S20000x256, .f32⟩
  | .hbm, ⟨70, _⟩ => ⟨S_, .i32⟩
  | .hbm, ⟨71, _⟩ => ⟨S340000, .i32⟩
  | .hbm, ⟨72, _⟩ => ⟨S340000, .i1⟩
  | .hbm, ⟨73, _⟩ => ⟨S_, .i32⟩
  | .hbm, ⟨74, _⟩ => ⟨S340000, .i32⟩
  | .hbm, ⟨75, _⟩ => ⟨S340000, .i32⟩
  | .hbm, ⟨76, _⟩ => ⟨S340000, .i32⟩
  | .hbm, ⟨77, _⟩ => ⟨S340000x1, .i32⟩
  | .hbm, ⟨78, _⟩ => ⟨S340000x256, .f32⟩
  | .hbm, ⟨79, _⟩ => ⟨S340000x1, .f32⟩
  | .hbm, ⟨80, _⟩ => ⟨S340000x256, .f32⟩
  | .hbm, ⟨81, _⟩ => ⟨S340000x256, .f32⟩
  | .hbm, ⟨82, _⟩ => ⟨S_, .f32⟩
  | .hbm, ⟨83, _⟩ => ⟨S20000x256, .f32⟩
  | .hbm, ⟨84, _⟩ => ⟨S340000x1, .i32⟩
  | .hbm, ⟨85, _⟩ => ⟨S20000x256, .f32⟩
  | .hbm, ⟨86, _⟩ => ⟨S1x256, .f32⟩
  | .hbm, ⟨87, _⟩ => ⟨S20000x256, .f32⟩
  | .hbm, ⟨88, _⟩ => ⟨S20000x256, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S20000x128_S128x256_S20000x256_1_0_0_1_n_n_wf : DotDims.WF S20000x128 S128x256 S20000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x256_S20000x256_1_0_0_1_n_n_wf : DotDims.WF S20000x256 S256x256 S20000x256 [1] [0] [0] [1] [] []

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel's run with its result array named.

  @main is eight segments: five stretches of host operations and three pipelined regions.  The buffer contents at
  every segment boundary are a fold from the launch memory (`Gen.W0` … `Gen.W8`): a stretch applies its operations,
  a region leaves each of its arrays at what its write-backs fold to.  Every weakly fair execution ends with every
  unscoped buffer at the last boundary's contents; read at the result buffer that is `Gen.W8 m ρ c` of the result's
  reference, and read at an argument it is the launch contents.
-/
import proofs.«120154_j84559316124099_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument arrays as launched. -/
theorem run_value : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Region0.lean ====
/-
  The first pipelined region (the dense map of layer one, its rows scaled), as one function of the arrays it finds.

  Its output array [20000, 256] is written in ten blocks of 2000 rows.  Grid point t reads rows 2000 t … 2000 t + 1999
  of the features X [20000, 128] and of the column D [20000, 1], and the whole weight W [128, 256]; rounding to the
  shorter float format is the identity on the extended reals, and the matrix product onto the zero array is the plain
  sum, so the point stores (sum over k of X(r, k) · W(k, q)) · D(r, 0) at row r of its block.  Every row lies in exactly
  one point's block, so the array ends as that function of X, W and D at every entry.
-/
import proofs.«120154_j84559316124099_2_alg».proof.Proof.Gen.KernelIdeal.Frame
import proofs.«120154_j84559316124099_2_alg».proof.Proof.LibUnitAxes
import proofs.«120154_j84559316124099_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is (sum over k of X(r, k) · W(k, q)) · D(r, 0). -/
def G (X : S20000x128.Idx → EReal) (W : S128x256.Idx → EReal) (D : S20000x1.Idx → EReal) : S20000x256.Idx → EReal :=
  fun i => (∑ k : Fin 128, X (ix2 (⟨(i 0).val, idx2_lt0 i⟩ : Fin 20000) k) * W (ix2 k (⟨(i 1).val, idx2_lt1 i⟩ : Fin 256)))
    * D (ix2 (⟨(i 0).val, idx2_lt0 i⟩ : Fin 20000) (0 : Fin 1))

theorem G_apply (X : S20000x128.Idx → EReal) (W : S128x256.Idx → EReal) (D : S20000x1.Idx → EReal) (u : Fin 20000) (q : Fin 256) :
    G X W D (ix2 u q) = (∑ k : Fin 128, X (ix2 u k) * W (ix2 k q)) * D (ix2 u (0 : Fin 1)) := rfl

/-- The body's stored value at an entry of the block. -/
theorem pay_apply (x0 : Vec Ideal S2000x128 .f32) (x1 : Vec Ideal S128x256 .f32) (x2 : Vec Ideal S2000x1 .f32)
    (p : Fin 2000) (q : Fin 256) :
    k0_pay1 (F := Ideal) x0 x1 x2 (ix2 p q)
      = (∑ k : Fin 128, x0 (ix2 p k) * x1 (ix2 k q)) * x2 (ix2 p (0 : Fin 1)) := by
  unfold k0_pay1
  rw [mulf_apply, shapeCast_self, Cert.UnitAxes.repeat_col_apply]
  refine congrArg (· * x2 (ix2 p (0 : Fin 1))) ?_
  exact Cert.PlainMatmul.zero_acc_apply dot_S2000x128_S128x256_S2000x256_1_0_0_1_n_n_wf none
    (truncf .bf16 x0 bitsLt_bf16_f32) (truncf .bf16 x1 bitsLt_bf16_f32) p q

/-- The stored value at any entry of the block. -/
theorem pay_at (x0 : Vec Ideal S2000x128 .f32) (x1 : Vec Ideal S128x256 .f32) (x2 : Vec Ideal S2000x1 .f32) (j : S2000x256.Idx) :
    k0_pay1 (F := Ideal) x0 x1 x2 j
      = (∑ k : Fin 128, x0 (ix2 (⟨(j 0).val, idx2_lt0 j⟩ : Fin 2000) k) * x1 (ix2 k (⟨(j 1).val, idx2_lt1 j⟩ : Fin 256)))
        * x2 (ix2 (⟨(j 0).val, idx2_lt0 j⟩ : Fin 2000) (0 : Fin 1)) := by
  obtain ⟨p, q, rfl⟩ : ∃ (p : Fin 2000) (q : Fin 256), j = ix2 p q := ⟨j 0, j 1, eq_ix2 j⟩
  exact pay_apply x0 x1 x2 p q

/-- The printed index maps over the grid: the row windows move with the output's block, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An entry of point t's output block sits at row 2000 t + its row, at its own column. -/
theorem emb_out (t : Fin cfg0.N) (j : S2000x256.Idx) :
    ((((cfg0.win 3).blk t).view.emb j) 0).val = t.val * 2000 + (j 0).val
      ∧ ((((cfg0.win 3).blk t).view.emb j) 1).val = (j 1).val := by
  have eo := (idx_facts t).2.2.2.2.2.2
  constructor
  · show win0_3.index t (0 : Fin 2) * 2000 + 1 * (j 0).val = t.val * 2000 + (j 0).val
    rw [eo.1]; omega
  · show win0_3.index t (1 : Fin 2) * 256 + 1 * (j 1).val = (j 1).val
    rw [eo.2]; omega

/-- Point t's block of the features: rows 2000 t …. -/
theorem read0 (c : Dev nD) (t : Fin cfg0.N) (x : S2000x128.Idx) (k : S20000x128.Idx)
    (hk0 : (k 0).val = t.val * 2000 + (x 0).val) (hk1 : (k 1).val = (x 1).val) :
    iblk0 V c 0 t x = V c main_arg0 k := by
  obtain ⟨e0, e1, e2, e3, e4, e5, e6, e7⟩ := idx_facts t
  show V c main_arg0 (((cfg0.win 0).blk t).view.emb x) = V c main_arg0 k
  refine congrArg (V c main_arg0) ?_
  funext a; apply Fin.ext
  match a with
  | ⟨0, _⟩ => show win0_0.index t (0 : Fin 2) * 2000 + 1 * (x 0).val = (k 0).val; omega
  | ⟨1, _⟩ => show win0_0.index t (1 : Fin 2) * 128 + 1 * (x 1).val = (k 1).val; omega

/-- Every point reads the whole weight. -/
theorem read1 (c : Dev nD) (t : Fin cfg0.N) (x : S128x256.Idx) (k : S128x256.Idx)
    (hk0 : (k 0).val = (x 0).val) (hk1 : (k 1).val = (x 1).val) :
    iblk0 V c 1 t x = V c main_arg2 k := by
  obtain ⟨e0, e1, e2, e3, e4, e5, e6, e7⟩ := idx_facts t
  show V c main_arg2 (((cfg0.win 1).blk t).view.emb x) = V c main_arg2 k
  refine congrArg (V c main_arg2) ?_
  funext a; apply Fin.ext
  match a with
  | ⟨0, _⟩ => show win0_1.index t (0 : Fin 2) * 128 + 1 * (x 0).val = (k 0).val; omega
  | ⟨1, _⟩ => show win0_1.index t (1 : Fin 2) * 256 + 1 * (x 1).val = (k 1).val; omega

/-- Point t's block of the column of factors: rows 2000 t …. -/
theorem read2 (c : Dev nD) (t : Fin cfg0.N) (x : S2000x1.Idx) (k : S20000x1.Idx)
    (hk0 : (k 0).val = t.val * 2000 + (x 0).val) (hk1 : (k 1).val = (x 1).val) :
    iblk0 V c 2 t x = V c main_v15 k := by
  obtain ⟨e0, e1, e2, e3, e4, e5, e6, e7⟩ := idx_facts t
  show V c main_v15 (((cfg0.win 2).blk t).view.emb x) = V c main_v15 k
  refine congrArg (V c main_v15) ?_
  funext a; apply Fin.ext
  match a with
  | ⟨0, _⟩ => show win0_2.index t (0 : Fin 2) * 2000 + 1 * (x 0).val = (k 0).val; omega
  | ⟨1, _⟩ => show win0_2.index t (1 : Fin 2) * 1 + 1 * (x 1).val = (k 1).val; omega

/-- What point t writes back is its block of `G` of the arrays the region finds. -/
theorem flushed_eq (c : Dev nD) (t : Fin cfg0.N) :
    (dat0 V c).flushed 3 t
      = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S2000x1) hz]
  funext j
  obtain ⟨h0, h1⟩ := emb_out t j
  show k0_pay1 (F := Ideal) (iblk0 V c 0 t) (iblk0 V c 1 t) (iblk0 V c 2 t) j
    = G (V c main_arg0) (V c main_arg2) (V c main_v15) (((cfg0.win 3).blk t).view.emb j)
  refine (pay_at (iblk0 V c 0 t) (iblk0 V c 1 t) (iblk0 V c 2 t) j).trans ?_
  unfold G
  refine congrArg₂ (· * ·) (Finset.sum_congr rfl fun k _ =>
    congrArg₂ (· * ·) (read0 V c t _ _ h0 rfl) (read1 V c t _ _ rfl h1)) (read2 V c t _ _ h0 rfl)

/-- An index of the array is in point t's block iff each coordinate is in the block's range. -/
theorem mem_blk (t : Fin cfg0.N) (i : S20000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v16).slice (win0_3.rect t)).set ↔ _
  rw [View.set_slice_whole, Rect.mem_set_unit]
  exact Iff.rfl

/-- Row r of the array is in the block of point r / 2000. -/
theorem cover (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  have hN : grid0.N = 10 := by decide
  have ht : (i 0).val / 2000 < cfg0.N := by show (i 0).val / 2000 < grid0.N; rw [hN]; omega
  have eo := (idx_facts ⟨(i 0).val / 2000, ht⟩).2.2.2.2.2.2
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [eo.1]
    show (i 0).val / 2000 * 2000 ≤ (i 0).val ∧ (i 0).val < (i 0).val / 2000 * 2000 + 2000
    omega
  | ⟨1, _⟩ =>
    show win0_3.index ⟨(i 0).val / 2000, ht⟩ (1 : Fin 2) * 256 ≤ (i 1).val
      ∧ (i 1).val < win0_3.index ⟨(i 0).val / 2000, ht⟩ (1 : Fin 2) * 256 + 256
    rw [eo.2]
    omega

/-- The region's output array after the region: `G` of the arrays it found. -/
theorem final (c : Dev nD) :
    (dat0 V c).arrAt 3 cfg0.N = G (V c main_arg0) (V c main_arg2) (V c main_v15) :=
  (dat0 V c).arrAt_eq_of_cover 3 _ (fun t _ => flushed_eq V c t) cover

end Cert.KernelIdeal.Region0

end
-- ==== Proof.Region1.lean ====
/-
  The second pipelined region (scale, bias and rectifier of layer one fused with the dense map of layer two, its rows
  scaled), as one function of the arrays it finds.

  Its output array [20000, 256] is written in ten blocks of 2000 rows.  Grid point t reads rows 2000 t … 2000 t + 1999 of
  the aggregate A [20000, 256] and of the column D [20000, 1], the whole bias row B [1, 256] and the whole weight
  W [256, 256].  At row r it forms h(r, j) = max (A(r, j) · D(r, 0) + B(0, j)) 0 and stores
  (sum over j of h(r, j) · W(j, q)) · D(r, 0): rounding to the shorter float format is the identity on the extended
  reals and the matrix product onto the zero array is the plain sum.  Every row lies in exactly one point's block, so
  the array ends as that function of A, B, D and W at every entry.
-/
import proofs.«120154_j84559316124099_2_alg».proof.Proof.Gen.KernelIdeal.Frame
import proofs.«120154_j84559316124099_2_alg».proof.Proof.LibUnitAxes
import proofs.«120154_j84559316124099_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is (sum over j of max (A(r, j) · D(r, 0) + B(0, j)) 0 · W(j, q)) · D(r, 0). -/
def G (A : S20000x256.Idx → EReal) (B : S1x256.Idx → EReal) (D : S20000x1.Idx → EReal) (W : S256x256.Idx → EReal) :
    S20000x256.Idx → EReal :=
  fun i => (∑ j : Fin 256,
      max (A (ix2 (⟨(i 0).val, idx2_lt0 i⟩ : Fin 20000) j) * D (ix2 (⟨(i 0).val, idx2_lt0 i⟩ : Fin 20000) (0 : Fin 1))
          + B (ix2 (0 : Fin 1) j)) 0
        * W (ix2 j (⟨(i 1).val, idx2_lt1 i⟩ : Fin 256)))
    * D (ix2 (⟨(i 0).val, idx2_lt0 i⟩ : Fin 20000) (0 : Fin 1))

theorem G_apply (A : S20000x256.Idx → EReal) (B : S1x256.Idx → EReal) (D : S20000x1.Idx → EReal) (W : S256x256.Idx → EReal)
    (u : Fin 20000) (q : Fin 256) :
    G A B D W (ix2 u q)
      = (∑ j : Fin 256, max (A (ix2 u j) * D (ix2 u (0 : Fin 1)) + B (ix2 (0 : Fin 1) j)) 0 * W (ix2 j q))
        * D (ix2 u (0 : Fin 1)) := rfl

/-- The rectified row the product reads, at an entry of the block. -/
theorem hidden_apply (v0 : Vec Ideal S2000x256 .f32) (v2 : Vec Ideal S2000x1 .f32) (v6 : Vec Ideal S1x256 .f32)
    (p : Fin 2000) (j : Fin 256) :
    (truncf .bf16 (maximumf (addf (mulf (shapeCast S2000x256 v0 shapeCasts_S2000x256_S2000x256)
        (broadcastTo S2000x256 (shapeCast S2000x1 v2 shapeCasts_S2000x1_S2000x1) broadcasts_S2000x1_S2000x256))
        (broadcastTo S2000x256 (shapeCast S1x256 v6 shapeCasts_S1x256_S1x256) broadcasts_S1x256_S2000x256))
        (broadcast S2000x256 (Scalar.ofBits (F := Ideal) .f32 0x00000000#32))) bitsLt_bf16_f32 : FVec Ideal S2000x256 .bf16) (ix2 p j)
      = max (v0 (ix2 p j) * v2 (ix2 p (0 : Fin 1)) + v6 (ix2 (0 : Fin 1) j)) 0 := by
  rw [truncf_apply, maximumf_apply, addf_apply, mulf_apply, shapeCast_self, shapeCast_self, shapeCast_self,
    Cert.UnitAxes.repeat_col_apply, broadcastTo_1b_ab_apply, broadcast_apply]
  refine congrArg (max _) ?_
  exact Ideal.ofBits_zero_f32

/-- The body's stored value at an entry of the block. -/
theorem pay_apply (v0 : Vec Ideal S2000x256 .f32) (v2 : Vec Ideal S2000x1 .f32) (v6 : Vec Ideal S1x256 .f32)
    (v13 : Vec Ideal S256x256 .f32) (v16 : Vec Ideal S2000x1 .f32) (p : Fin 2000) (q : Fin 256) :
    k1_pay1 (F := Ideal) v0 v2 v6 v13 v16 (ix2 p q)
      = (∑ j : Fin 256, max (v0 (ix2 p j) * v2 (ix2 p (0 : Fin 1)) + v6 (ix2 (0 : Fin 1) j)) 0 * v13 (ix2 j q))
        * v16 (ix2 p (0 : Fin 1)) := by
  unfold k1_pay1
  rw [mulf_apply, Cert.UnitAxes.repeat_col_apply]
  refine congrArg₂ (· * ·) ?_ (congrFun (shapeCast_self v16 _) _)
  refine (Cert.PlainMatmul.zero_acc_apply dot_S2000x256_S256x256_S2000x256_1_0_0_1_n_n_wf none _
    (truncf .bf16 v13 bitsLt_bf16_f32) p q).trans ?_
  refine Finset.sum_congr rfl fun j _ => ?_
  refine congrArg (· * v13 (ix2 j q)) ?_
  exact hidden_apply v0 v2 v6 p j

/-- The stored value at any entry of the block. -/
theorem pay_at (v0 : Vec Ideal S2000x256 .f32) (v2 : Vec Ideal S2000x1 .f32) (v6 : Vec Ideal S1x256 .f32)
    (v13 : Vec Ideal S256x256 .f32) (v16 : Vec Ideal S2000x1 .f32) (j : S2000x256.Idx) :
    k1_pay1 (F := Ideal) v0 v2 v6 v13 v16 j
      = (∑ l : Fin 256, max (v0 (ix2 (⟨(j 0).val, idx2_lt0 j⟩ : Fin 2000) l) * v2 (ix2 (⟨(j 0).val, idx2_lt0 j⟩ : Fin 2000) (0 : Fin 1))
            + v6 (ix2 (0 : Fin 1) l)) 0 * v13 (ix2 l (⟨(j 1).val, idx2_lt1 j⟩ : Fin 256)))
        * v16 (ix2 (⟨(j 0).val, idx2_lt0 j⟩ : Fin 2000) (0 : Fin 1)) := by
  obtain ⟨p, q, rfl⟩ : ∃ (p : Fin 2000) (q : Fin 256), j = ix2 p q := ⟨j 0, j 1, eq_ix2 j⟩
  exact pay_apply v0 v2 v6 v13 v16 p q

/-- The printed index maps over the grid: the row windows move with the output's block, bias and weight stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An entry of point t's output block sits at row 2000 t + its row, at its own column. -/
theorem emb_out (t : Fin cfg1.N) (j : S2000x256.Idx) :
    ((((cfg1.win 4).blk t).view.emb j) 0).val = t.val * 2000 + (j 0).val
      ∧ ((((cfg1.win 4).blk t).view.emb j) 1).val = (j 1).val := by
  have eo := (idx_facts t).2.2.2.2.2.2.2.2
  constructor
  · show win1_4.index t (0 : Fin 2) * 2000 + 1 * (j 0).val = t.val * 2000 + (j 0).val
    rw [eo.1]; omega
  · show win1_4.index t (1 : Fin 2) * 256 + 1 * (j 1).val = (j 1).val
    rw [eo.2]; omega

/-- Point t's block of the aggregate: rows 2000 t …. -/
theorem read0 (c : Dev nD) (t : Fin cfg1.N) (x : S2000x256.Idx) (k : S20000x256.Idx)
    (hk0 : (k 0).val = t.val * 2000 + (x 0).val) (hk1 : (k 1).val = (x 1).val) :
    iblk1 V c 0 t x = V c main_v26 k := by
  obtain ⟨e0, e1, e2, e3, e4, e5, e6, e7, e8, e9⟩ := idx_facts t
  show V c main_v26 (((cfg1.win 0).blk t).view.emb x) = V c main_v26 k
  refine congrArg (V c main_v26) ?_
  funext a; apply Fin.ext
  match a with
  | ⟨0, _⟩ => show win1_0.index t (0 : Fin 2) * 2000 + 1 * (x 0).val = (k 0).val; omega
  | ⟨1, _⟩ => show win1_0.index t (1 : Fin 2) * 256 + 1 * (x 1).val = (k 1).val; omega

/-- Every point reads the whole bias row. -/
theorem read1 (c : Dev nD) (t : Fin cfg1.N) (x : S1x256.Idx) (k : S1x256.Idx)
    (hk0 : (k 0).val = (x 0).val) (hk1 : (k 1).val = (x 1).val) :
    iblk1 V c 1 t x = V c main_v27 k := by
  obtain ⟨e0, e1, e2, e3, e4, e5, e6, e7, e8, e9⟩ := idx_facts t
  show V c main_v27 (((cfg1.win 1).blk t).view.emb x) = V c main_v27 k
  refine congrArg (V c main_v27) ?_
  funext a; apply Fin.ext
  match a with
  | ⟨0, _⟩ => show win1_1.index t (0 : Fin 2) * 1 + 1 * (x 0).val = (k 0).val; omega
  | ⟨1, _⟩ => show win1_1.index t (1 : Fin 2) * 256 + 1 * (x 1).val = (k 1).val; omega

/-- Point t's block of the column of factors: rows 2000 t …. -/
theorem read2 (c : Dev nD) (t : Fin cfg1.N) (x : S2000x1.Idx) (k : S20000x1.Idx)
    (hk0 : (k 0).val = t.val * 2000 + (x 0).val) (hk1 : (k 1).val = (x 1).val) :
    iblk1 V c 2 t x = V c main_v15 k := by
  obtain ⟨e0, e1, e2, e3, e4, e5, e6, e7, e8, e9⟩ := idx_facts t
  show V c main_v15 (((cfg1.win 2).blk t).view.emb x) = V c main_v15 k
  refine congrArg (V c main_v15) ?_
  funext a; apply Fin.ext
  match a with
  | ⟨0, _⟩ => show win1_2.index t (0 : Fin 2) * 2000 + 1 * (x 0).val = (k 0).val; omega
  | ⟨1, _⟩ => show win1_2.index t (1 : Fin 2) * 1 + 1 * (x 1).val = (k 1).val; omega

/-- Every point reads the whole weight. -/
theorem read3 (c : Dev nD) (t : Fin cfg1.N) (x : S256x256.Idx) (k : S256x256.Idx)
    (hk0 : (k 0).val = (x 0).val) (hk1 : (k 1).val = (x 1).val) :
    iblk1 V c 3 t x = V c main_arg4 k := by
  obtain ⟨e0, e1, e2, e3, e4, e5, e6, e7, e8, e9⟩ := idx_facts t
  show V c main_arg4 (((cfg1.win 3).blk t).view.emb x) = V c main_arg4 k
  refine congrArg (V c main_arg4) ?_
  funext a; apply Fin.ext
  match a with
  | ⟨0, _⟩ => show win1_3.index t (0 : Fin 2) * 256 + 1 * (x 0).val = (k 0).val; omega
  | ⟨1, _⟩ => show win1_3.index t (1 : Fin 2) * 256 + 1 * (x 1).val = (k 1).val; omega

/-- What point t writes back is its block of `G` of the arrays the region finds. -/
theorem flushed_eq (c : Dev nD) (t : Fin cfg1.N) :
    (dat1 V c).flushed 4 t
      = ((cfg1.win 4).blk t).view.read (Elt Ideal) (G (V c main_v26) (V c main_v27) (V c main_v15) (V c main_arg4)) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz, View.ld_unit_zero (S := S2000x1) hz,
    View.ld_unit_zero (S := S256x256) hz]
  funext j
  obtain ⟨h0, h1⟩ := emb_out t j
  show k1_pay1 (F := Ideal) (iblk1 V c 0 t) (iblk1 V c 2 t) (iblk1 V c 1 t) (iblk1 V c 3 t) (iblk1 V c 2 t) j
    = G (V c main_v26) (V c main_v27) (V c main_v15) (V c main_arg4) (((cfg1.win 4).blk t).view.emb j)
  refine (pay_at (iblk1 V c 0 t) (iblk1 V c 2 t) (iblk1 V c 1 t) (iblk1 V c 3 t) (iblk1 V c 2 t) j).trans ?_
  unfold G
  refine congrArg₂ (· * ·) (Finset.sum_congr rfl fun l _ =>
    congrArg₂ (· * ·)
      (congrArg (max · 0) (congrArg₂ (· + ·)
        (congrArg₂ (· * ·) (read0 V c t _ _ h0 rfl) (read2 V c t _ _ h0 rfl)) (read1 V c t _ _ rfl rfl)))
      (read3 V c t _ _ rfl h1)) (read2 V c t _ _ h0 rfl)

/-- An index of the array is in point t's block iff each coordinate is in the block's range. -/
theorem mem_blk (t : Fin cfg1.N) (i : S20000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v28).slice (win1_4.rect t)).set ↔ _
  rw [View.set_slice_whole, Rect.mem_set_unit]
  exact Iff.rfl

/-- Row r of the array is in the block of point r / 2000. -/
theorem cover (i : S20000x256.Idx) :
    ∃ t : Fin cfg1.N, (cfg1.win 4).flush t = true ∧ i ∈ ((cfg1.win 4).blk t).view.set := by
  have hi0 : (i 0).val < 20000 := (i 0).isLt
  have hi1 : (i 1).val < 256 := (i 1).isLt
  have hN : grid1.N = 10 := by decide
  have ht : (i 0).val / 2000 < cfg1.N := by show (i 0).val / 2000 < grid1.N; rw [hN]; omega
  have eo := (idx_facts ⟨(i 0).val / 2000, ht⟩).2.2.2.2.2.2.2.2
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [eo.1]
    show (i 0).val / 2000 * 2000 ≤ (i 0).val ∧ (i 0).val < (i 0).val / 2000 * 2000 + 2000
    omega
  | ⟨1, _⟩ =>
    show win1_4.index ⟨(i 0).val / 2000, ht⟩ (1 : Fin 2) * 256 ≤ (i 1).val
      ∧ (i 1).val < win1_4.index ⟨(i 0).val / 2000, ht⟩ (1 : Fin 2) * 256 + 256
    rw [eo.2]
    omega

/-- The region's output array after the region: `G` of the arrays it found. -/
theorem final (c : Dev nD) :
    (dat1 V c).arrAt 4 cfg1.N = G (V c main_v26) (V c main_v27) (V c main_v15) (V c main_arg4) :=
  (dat1 V c).arrAt_eq_of_cover 4 _ (fun t _ => flushed_eq V c t) cover

end Cert.KernelIdeal.Region1

end
-- ==== Proof.Region2.lean ====
/-
  The third pipelined region (the final scale and bias), as one function of the arrays it finds.

  Its output array [20000, 256] is written in ten blocks of 2000 rows.  Grid point t reads rows 2000 t … 2000 t + 1999
  of the aggregate A [20000, 256] and of the column D [20000, 1], and the whole row B [1, 256], and stores
  A(r, q) · D(r, 0) + B(0, q) at row r of its block.  Every row of the array lies in exactly one point's block
  (the block of row r is r / 2000), so the array ends as that function of A, D and B at every entry.
-/
import proofs.«120154_j84559316124099_2_alg».proof.Proof.Gen.KernelIdeal.Frame
import proofs.«120154_j84559316124099_2_alg».proof.Proof.LibUnitAxes
import Idealize.ShloMosaic.Lib.Pipeline.Value
import Idealize.ShloMosaic.Lib.ValueIdx
import Idealize.ShloMosaic.Lib.ValueLayout

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array the region leaves: entry (r, q) is A(r, q) · D(r, 0) + B(0, q). -/
def G (A : S20000x256.Idx → EReal) (D : S20000x1.Idx → EReal) (B : S1x256.Idx → EReal) : S20000x256.Idx → EReal :=
  fun i => A i * D (ix2 (⟨(i 0).val, idx2_lt0 i⟩ : Fin 20000) (0 : Fin 1)) + B (ix2 (0 : Fin 1) (⟨(i 1).val, idx2_lt1 i⟩ : Fin 256))

theorem G_apply (A : S20000x256.Idx → EReal) (D : S20000x1.Idx → EReal) (B : S1x256.Idx → EReal) (u : Fin 20000) (k : Fin 256) :
    G A D B (ix2 u k) = A (ix2 u k) * D (ix2 u (0 : Fin 1)) + B (ix2 (0 : Fin 1) k) := rfl

/-- The body's stored value at an entry of the block: the aggregate's entry times the row's factor plus the bias. -/
theorem pay_apply (x0 : Vec Ideal S2000x256 .f32) (x1 : Vec Ideal S2000x1 .f32) (x2 : Vec Ideal S1x256 .f32)
    (p : Fin 2000) (q : Fin 256) :
    k2_pay1 (F := Ideal) x0 x1 x2 (ix2 p q) = x0 (ix2 p q) * x1 (ix2 p (0 : Fin 1)) + x2 (ix2 (0 : Fin 1) q) := by
  unfold k2_pay1
  rw [addf_apply, mulf_apply, shapeCast_self, shapeCast_self, shapeCast_self,
    Cert.UnitAxes.repeat_col_apply, broadcastTo_1b_ab_apply]

/-- The printed index maps over the grid: every window moves with the output's block on the row axis. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The stored value at any entry of the block. -/
theorem pay_at (x0 : Vec Ideal S2000x256 .f32) (x1 : Vec Ideal S2000x1 .f32) (x2 : Vec Ideal S1x256 .f32) (j : S2000x256.Idx) :
    k2_pay1 (F := Ideal) x0 x1 x2 j
      = x0 j * x1 (ix2 (⟨(j 0).val, idx2_lt0 j⟩ : Fin 2000) (0 : Fin 1)) + x2 (ix2 (0 : Fin 1) (⟨(j 1).val, idx2_lt1 j⟩ : Fin 256)) := by
  obtain ⟨p, q, rfl⟩ : ∃ (p : Fin 2000) (q : Fin 256), j = ix2 p q := ⟨j 0, j 1, eq_ix2 j⟩
  exact pay_apply x0 x1 x2 p q

/-- An entry of point t's output block sits at row 2000 t + its row, at its own column. -/
theorem emb_out (t : Fin cfg2.N) (j : S2000x256.Idx) :
    ((((cfg2.win 3).blk t).view.emb j) 0).val = t.val * 2000 + (j 0).val
      ∧ ((((cfg2.win 3).blk t).view.emb j) 1).val = (j 1).val := by
  obtain ⟨e0, e1, e2, e3, e4, e5, e6, e7⟩ := idx_facts t
  constructor
  · show win2_3.index t (0 : Fin 2) * 2000 + 1 * (j 0).val = t.val * 2000 + (j 0).val
    omega
  · show win2_3.index t (1 : Fin 2) * 256 + 1 * (j 1).val = (j 1).val
    omega

/-- Point t's block of the aggregate: rows 2000 t …. -/
theorem read0 (c : Dev nD) (t : Fin cfg2.N) (x : S2000x256.Idx) (k : S20000x256.Idx)
    (hk0 : (k 0).val = t.val * 2000 + (x 0).val) (hk1 : (k 1).val = (x 1).val) :
    iblk2 V c 0 t x = V c main_v38 k := by
  obtain ⟨e0, e1, e2, e3, e4, e5, e6, e7⟩ := idx_facts t
  show V c main_v38 (((cfg2.win 0).blk t).view.emb x) = V c main_v38 k
  refine congrArg (V c main_v38) ?_
  funext a; apply Fin.ext
  match a with
  | ⟨0, _⟩ => show win2_0.index t (0 : Fin 2) * 2000 + 1 * (x 0).val = (k 0).val; omega
  | ⟨1, _⟩ => show win2_0.index t (1 : Fin 2) * 256 + 1 * (x 1).val = (k 1).val; omega

/-- Point t's block of the column of factors: rows 2000 t …. -/
theorem read1 (c : Dev nD) (t : Fin cfg2.N) (x : S2000x1.Idx) (k : S20000x1.Idx)
    (hk0 : (k 0).val = t.val * 2000 + (x 0).val) (hk1 : (k 1).val = (x 1).val) :
    iblk2 V c 1 t x = V c main_v15 k := by
  obtain ⟨e0, e1, e2, e3, e4, e5, e6, e7⟩ := idx_facts t
  show V c main_v15 (((cfg2.win 1).blk t).view.emb x) = V c main_v15 k
  refine congrArg (V c main_v15) ?_
  funext a; apply Fin.ext
  match a with
  | ⟨0, _⟩ => show win2_1.index t (0 : Fin 2) * 2000 + 1 * (x 0).val = (k 0).val; omega
  | ⟨1, _⟩ => show win2_1.index t (1 : Fin 2) * 1 + 1 * (x 1).val = (k 1).val; omega

/-- Every point reads the whole bias row. -/
theorem read2 (c : Dev nD) (t : Fin cfg2.N) (x : S1x256.Idx) (k : S1x256.Idx)
    (hk0 : (k 0).val = (x 0).val) (hk1 : (k 1).val = (x 1).val) :
    iblk2 V c 2 t x = V c main_v39 k := by
  obtain ⟨e0, e1, e2, e3, e4, e5, e6, e7⟩ := idx_facts t
  show V c main_v39 (((cfg2.win 2).blk t).view.emb x) = V c main_v39 k
  refine congrArg (V c main_v39) ?_
  funext a; apply Fin.ext
  match a with
  | ⟨0, _⟩ => show win2_2.index t (0 : Fin 2) * 1 + 1 * (x 0).val = (k 0).val; omega
  | ⟨1, _⟩ => show win2_2.index t (1 : Fin 2) * 256 + 1 * (x 1).val = (k 1).val; omega

/-- What point t writes back is its block of `G` of the arrays the region finds. -/
theorem flushed_eq (c : Dev nD) (t : Fin cfg2.N) :
    (dat2 V c).flushed 3 t
      = ((cfg2.win 3).blk t).view.read (Elt Ideal) (G (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S2000x256) hz, View.ld_unit_zero (S := S2000x1) hz, View.ld_unit_zero (S := S1x256) hz]
  funext j
  obtain ⟨h0, h1⟩ := emb_out t j
  show k2_pay1 (F := Ideal) (iblk2 V c 0 t) (iblk2 V c 1 t) (iblk2 V c 2 t) j
    = G (V c main_v38) (V c main_v15) (V c main_v39) (((cfg2.win 3).blk t).view.emb j)
  refine (pay_at (iblk2 V c 0 t) (iblk2 V c 1 t) (iblk2 V c 2 t) j).trans ?_
  unfold G
  refine congrArg₂ (· + ·) (congrArg₂ (· * ·) (read0 V c t j _ h0 h1) (read1 V c t _ _ h0 rfl)) (read2 V c t _ _ rfl h1)

/-- An index of the array is in point t's block iff each coordinate is in the block's range. -/
theorem mem_blk (t : Fin cfg2.N) (i : S20000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v40).slice (win2_3.rect t)).set ↔ _
  rw [View.set_slice_whole, Rect.mem_set_unit]
  exact Iff.rfl

/-- Row r of the array is in the block of point r / 2000. -/
theorem cover (i : S20000x256.Idx) :
    ∃ t : Fin cfg2.N, (cfg2.win 3).flush t = true ∧ i ∈ ((cfg2.win 3).blk t).view.set := by
  have hi0 : (i 0).val < 20000 := (i 0).isLt
  have hi1 : (i 1).val < 256 := (i 1).isLt
  have hN : grid2.N = 10 := by decide
  have ht : (i 0).val / 2000 < cfg2.N := by show (i 0).val / 2000 < grid2.N; rw [hN]; omega
  obtain ⟨e0, e1, e2, e3, e4, e5, e6, e7⟩ := idx_facts ⟨(i 0).val / 2000, ht⟩
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win2_3.index ⟨(i 0).val / 2000, ht⟩ (1 : Fin 2) * 256 ≤ (i 1).val
      ∧ (i 1).val < win2_3.index ⟨(i 0).val / 2000, ht⟩ (1 : Fin 2) * 256 + 256
    rw [e7]
    omega

/-- The region's output array after the region: `G` of the arrays it found. -/
theorem final (c : Dev nD) :
    (dat2 V c).arrAt 3 cfg2.N = G (V c main_v38) (V c main_v15) (V c main_v39) :=
  (dat2 V c).arrAt_eq_of_cover 3 _ (fun t _ => flushed_eq V c t) cover

end Cert.KernelIdeal.Region2

end
-- ==== Proof.Spec.lean ====
/-
  Two layers of degree-normalised graph convolution over 20000 nodes and 340000 edges, as pure functions on the
  extended reals, in the two arrangements the two programs compute.

  An edge e reads the row of node `s e` and is added into the node v its target word denotes, `tgt e = v`; an edge
  whose target denotes no node is dropped.  With d the per-node factor (the inverse square root of the degree, or 0):

    * one arrangement scales the rows before they are read and the aggregated rows afterwards,
        ((sum over the edges into v of  H (s e) k * d (s e)) * d v) + b k ;
    * the other multiplies every edge's row by the edge's weight  nrm e = d (s e) * d v,
        (sum over the edges into v of  H (s e) k * nrm e) + b k .

  They agree because a factor that is nonnegative and not +inf moves across a finite sum of extended reals, whatever
  the terms are, and the product of extended reals is associative.
-/
import Mathlib.Data.EReal.Operations
import Mathlib.Data.EReal.Inv
import Mathlib.Algebra.BigOperators.Fin

noncomputable section

open scoped BigOperators

namespace Cert.Gcn

abbrev Node := Fin 20000
abbrev Edge := Fin 340000

/-- The sum of f over the edges whose target word denotes the node v. -/
def agg (tgt : Edge → Int) (f : Edge → EReal) (v : Node) : EReal :=
  ∑ e ∈ Finset.univ.filter (fun e : Edge => tgt e = (v.val : Int)), f e

/-- The dense linear map of a layer: row u of X against column k of W. -/
def lin {n : Nat} (X : Node → Fin n → EReal) (W : Fin n → Fin 256 → EReal) (u : Node) (k : Fin 256) : EReal :=
  ∑ j : Fin n, X u j * W j k

/-- The rectifier, entry by entry. -/
def relu (Z : Node → Fin 256 → EReal) (u : Node) (j : Fin 256) : EReal := max (Z u j) 0

/-- Every row scaled by its node's factor. -/
def scaled (H : Node → Fin 256 → EReal) (d : Node → EReal) (u : Node) (k : Fin 256) : EReal := H u k * d u

/-- A layer with per-edge weights: gather, weight, aggregate from zero, add the bias. -/
def refLayer (tgt : Edge → Int) (s : Edge → Node) (nrm : Edge → EReal) (H : Node → Fin 256 → EReal)
    (b : Fin 256 → EReal) (v : Node) (k : Fin 256) : EReal :=
  (0 + agg tgt (fun e => H (s e) k * nrm e) v) + b k

/-- A layer on rows scaled beforehand: gather, aggregate from zero, scale the aggregate, add the bias. -/
def kerLayer (tgt : Edge → Int) (s : Edge → Node) (d : Node → EReal) (Y : Node → Fin 256 → EReal)
    (b : Fin 256 → EReal) (v : Node) (k : Fin 256) : EReal :=
  (0 + agg tgt (fun e => Y (s e) k) v) * d v + b k

/-- Two layers with per-edge weights, a rectifier between them. -/
def refOut (tgt : Edge → Int) (s : Edge → Node) (nrm : Edge → EReal) (X : Node → Fin 128 → EReal)
    (W1 : Fin 128 → Fin 256 → EReal) (b1 : Fin 256 → EReal) (W2 : Fin 256 → Fin 256 → EReal) (b2 : Fin 256 → EReal) :
    Node → Fin 256 → EReal :=
  refLayer tgt s nrm (lin (relu (refLayer tgt s nrm (lin X W1) b1)) W2) b2

/-- Two layers on rows scaled beforehand, a rectifier between them. -/
def kerOut (tgt : Edge → Int) (s : Edge → Node) (d : Node → EReal) (X : Node → Fin 128 → EReal)
    (W1 : Fin 128 → Fin 256 → EReal) (b1 : Fin 256 → EReal) (W2 : Fin 256 → Fin 256 → EReal) (b2 : Fin 256 → EReal) :
    Node → Fin 256 → EReal :=
  kerLayer tgt s d (scaled (lin (relu (kerLayer tgt s d (scaled (lin X W1) d) b1)) W2) d) b2

/-- A factor that is nonnegative and not +inf moves across a finite sum of extended reals. -/
theorem sum_mul_of_nonneg {ι : Type} (S : Finset ι) (f : ι → EReal) (c : EReal) (h0 : 0 ≤ c) (ht : c ≠ ⊤) :
    (∑ i ∈ S, f i) * c = ∑ i ∈ S, f i * c := by
  classical
  induction S using Finset.induction_on with
  | empty => simp
  | insert a S ha ih =>
    rw [Finset.sum_insert ha, Finset.sum_insert ha, EReal.right_distrib_of_nonneg_of_ne_top h0 ht, ih]

/-- One layer: the two arrangements agree when every edge into v has the weight d (s e) * d v. -/
theorem kerLayer_eq_refLayer (tgt : Edge → Int) (s : Edge → Node) (d : Node → EReal) (nrm : Edge → EReal)
    (hd0 : ∀ u, 0 ≤ d u) (hdt : ∀ u, d u ≠ ⊤)
    (hn : ∀ (e : Edge) (v : Node), tgt e = (v.val : Int) → nrm e = d (s e) * d v)
    (H : Node → Fin 256 → EReal) (b : Fin 256 → EReal) :
    kerLayer tgt s d (scaled H d) b = refLayer tgt s nrm H b := by
  funext v k
  unfold kerLayer refLayer agg scaled
  rw [zero_add, zero_add, sum_mul_of_nonneg _ _ _ (hd0 v) (hdt v)]
  refine congrArg (· + b k) (Finset.sum_congr rfl fun e he => ?_)
  show H (s e) k * d (s e) * d v = H (s e) k * nrm e
  rw [hn e v (Finset.mem_filter.mp he).2]
  exact mul_assoc (H (s e) k) (d (s e)) (d v)

/-- Both layers. -/
theorem kerOut_eq_refOut (tgt : Edge → Int) (s : Edge → Node) (d : Node → EReal) (nrm : Edge → EReal)
    (hd0 : ∀ u, 0 ≤ d u) (hdt : ∀ u, d u ≠ ⊤)
    (hn : ∀ (e : Edge) (v : Node), tgt e = (v.val : Int) → nrm e = d (s e) * d v)
    (X : Node → Fin 128 → EReal) (W1 : Fin 128 → Fin 256 → EReal) (b1 : Fin 256 → EReal)
    (W2 : Fin 256 → Fin 256 → EReal) (b2 : Fin 256 → EReal) :
    kerOut tgt s d X W1 b1 W2 b2 = refOut tgt s nrm X W1 b1 W2 b2 := by
  unfold kerOut refOut
  rw [kerLayer_eq_refLayer tgt s d nrm hd0 hdt hn, kerLayer_eq_refLayer tgt s d nrm hd0 hdt hn]

end Cert.Gcn

end
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.KernelValue.lean ====
/-
  The idealized kernel's result array, entry by entry, as the two-layer graph convolution on rows scaled beforehand.

  The run's last boundary contents at the result buffer are what the third region leaves: `Region2.G` of the second
  aggregate, the column of per-node factors and the second bias row.  Walking the boundaries back: an aggregate is the
  accumulating scatter, from the zero array, at the column of target words, of the rows gathered at the column of
  normalised source words from what the previous region left; the first region leaves the scaled dense map of the
  features, the second the scaled dense map of the rectified first layer.  A buffer that a stretch of host operations
  or a region does not write is the same on both sides of it; a region's input arrays end as they were found.

  Read at an entry: a gathered row is the row of the node the source word selects (a negative word moved up by the
  number of nodes, then clamped into range), the scatter at node v adds the updates of the edges whose target word read
  signed is v, and the zero array contributes 0.
-/
import proofs.«120154_j84559316124099_2_alg».proof.Proof.Gen.KernelIdeal.Frame
import proofs.«120154_j84559316124099_2_alg».proof.Proof.Region0
import proofs.«120154_j84559316124099_2_alg».proof.Proof.Region1
import proofs.«120154_j84559316124099_2_alg».proof.Proof.Region2
import proofs.«120154_j84559316124099_2_alg».proof.Proof.Spec
import proofs.«120154_j84559316124099_2_alg».proof.Proof.LibRowTakeAdd
import proofs.«120154_j84559316124099_2_alg».proof.Proof.LibKeepdims
import proofs.«120154_j84559316124099_2_alg».proof.Proof.LibUnitAxes
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

/-! ## The host operations between the regions, as functions -/

/-- A vector of index words with every negative word moved up by the number of nodes. -/
def normVec (w : IVec S340000 32) : IVec S340000 32 :=
  select (cmpi .slt w (broadcastInDim S340000 ![] bcast_S_S340000 (constantI S_ 32 0#32)))
    (addi w (broadcastInDim S340000 ![] bcast_S_S340000 (constantI S_ 32 20000#32))) w

/-- A vector of index words as a column. -/
def col (w : IVec S340000 32) : IVec S340000x1 32 := broadcastInDim S340000x1 ![0] bcast_S340000_S340000x1_0 w

/-- The zero array the aggregation starts from. -/
def zeros : FVec Ideal S20000x256 .f32 :=
  broadcastInDim S20000x256 ![] bcast_S_S20000x256 (constant (F := Ideal) S_ .f32 0x00000000#32)

/-- One aggregation: rows of Y gathered at the normalised source words, added into the rows the target words name. -/
def aggregate (src dst : IVec S340000 32) (Y : FVec Ideal S20000x256 .f32) : FVec Ideal S20000x256 .f32 :=
  Host.scatterAdd (F := Ideal) scatter_S20000x256_S340000x1_S340000x256_1_0_0_1 zeros (col dst)
    (Host.gather gather_S20000x256_S340000x1_S340000x256_1_0_n_n_0_1_1256 Y (col (normVec src)))

/-- The node whose row edge e reads. -/
def srow (src : IVec S340000 32) (e : Fin 340000) : Fin 20000 :=
  Cert.RowTakeAdd.takeRow 20000 (by norm_num) (normVec src (ix1 e))

/-- The target word of edge e read signed. -/
def tgt (dst : IVec S340000 32) (e : Fin 340000) : Int := (dst (ix1 e)).toInt

theorem zeros_apply (i : S20000x256.Idx) : zeros i = 0 := by
  unfold zeros
  rw [broadcastInDim_apply _ bcast_S_S20000x256 _ i ix0 (fun a => a.elim0), constant_apply]
  exact Ideal.ofBits_zero_f32

/-- An aggregation at an entry: 0 plus the sum, over the edges whose target word denotes node v, of the gathered row's entry. -/
theorem aggregate_apply (src dst : IVec S340000 32) (Y : FVec Ideal S20000x256 .f32) (v : Fin 20000) (k : Fin 256) :
    aggregate src dst Y (ix2 v k) = 0 + Cert.Gcn.agg (tgt dst) (fun e => Y (ix2 (srow src e) k)) v := by
  unfold aggregate
  refine (Cert.RowTakeAdd.scatterAdd_rows_apply scatter_S20000x256_S340000x1_S340000x256_1_0_0_1_wf zeros (col dst) _ v k).trans ?_
  rw [zeros_apply]
  unfold Cert.Gcn.agg tgt
  refine congrArg (0 + ·) ?_
  have hcol : ∀ e : Fin 340000, col dst (ix2 e (0 : Fin 1)) = dst (ix1 e) := fun e =>
    Cert.Keepdims.host_column_apply dst bcast_S340000_S340000x1_0 e 0
  simp only [hcol]
  refine Finset.sum_congr rfl fun e _ => ?_
  refine (Cert.RowTakeAdd.gather_rows_apply (by norm_num) gather_S20000x256_S340000x1_S340000x256_1_0_n_n_0_1_1256_wf Y
    (col (normVec src)) e k).trans ?_
  unfold srow
  rw [show col (normVec src) (ix2 e (0 : Fin 1)) = normVec src (ix1 e) from
    Cert.Keepdims.host_column_apply (normVec src) bcast_S340000_S340000x1_0 e 0]

/-! ## A stretch of host operations leaves a buffer it does not write as it found it -/

theorem keep_hostOps0_main_arg0 (Wv : Valuation τ sig (Elt Ideal)) :
    StableHlo.after hostOps0 Wv (Proc.devRef .tc main_arg0) = Wv (Proc.devRef .tc main_arg0) := by
  after_results
theorem keep_hostOps0_main_arg2 (Wv : Valuation τ sig (Elt Ideal)) :
    StableHlo.after hostOps0 Wv (Proc.devRef .tc main_arg2) = Wv (Proc.devRef .tc main_arg2) := by
  after_results
theorem keep_hostOps0_main_arg3 (Wv : Valuation τ sig (Elt Ideal)) :
    StableHlo.after hostOps0 Wv (Proc.devRef .tc main_arg3) = Wv (Proc.devRef .tc main_arg3) := by
  after_results
theorem keep_hostOps0_main_arg4 (Wv : Valuation τ sig (Elt Ideal)) :
    StableHlo.after hostOps0 Wv (Proc.devRef .tc main_arg4) = Wv (Proc.devRef .tc main_arg4) := by
  after_results
theorem keep_hostOps0_main_arg5 (Wv : Valuation τ sig (Elt Ideal)) :
    StableHlo.after hostOps0 Wv (Proc.devRef .tc main_arg5) = Wv (Proc.devRef .tc main_arg5) := by
  after_results
theorem keep_hostOps0_1_main_v3 (Wv : Valuation τ sig (Elt Ideal)) :
    StableHlo.after hostOps0_1 Wv (Proc.devRef .tc main_v3) = Wv (Proc.devRef .tc main_v3) := by
  after_results
theorem keep_hostOps0_1_main_v6 (Wv : Valuation τ sig (Elt Ideal)) :
    StableHlo.after hostOps0_1 Wv (Proc.devRef .tc main_v6) = Wv (Proc.devRef .tc main_v6) := by
  after_results
theorem keep_hostOps0_1_main_arg0 (Wv : Valuation τ sig (Elt Ideal)) :
    StableHlo.after hostOps0_1 Wv (Proc.devRef .tc main_arg0) = Wv (Proc.devRef .tc main_arg0) := by
  after_results
theorem keep_hostOps0_1_main_arg2 (Wv : Valuation τ sig (Elt Ideal)) :
    StableHlo.after hostOps0_1 Wv (Proc.devRef .tc main_arg2) = Wv (Proc.devRef .tc main_arg2) := by
  after_results
theorem keep_hostOps0_1_main_arg3 (Wv : Valuation τ sig (Elt Ideal)) :
    StableHlo.after hostOps0_1 Wv (Proc.devRef .tc main_arg3) = Wv (Proc.devRef .tc main_arg3) := by
  after_results
theorem keep_hostOps0_1_main_arg4 (Wv : Valuation τ sig (Elt Ideal)) :
    StableHlo.after hostOps0_1 Wv (Proc.devRef .tc main_arg4) = Wv (Proc.devRef .tc main_arg4) := by
  after_results
theorem keep_hostOps0_1_main_arg5 (Wv : Valuation τ sig (Elt Ideal)) :
    StableHlo.after hostOps0_1 Wv (Proc.devRef .tc main_arg5) = Wv (Proc.devRef .tc main_arg5) := by
  after_results
theorem keep_hostOps0_2_main_v3 (Wv : Valuation τ sig (Elt Ideal)) :
    StableHlo.after hostOps0_2 Wv (Proc.devRef .tc main_v3) = Wv (Proc.devRef .tc main_v3) := by
  after_results
theorem keep_hostOps0_2_main_v6 (Wv : Valuation τ sig (Elt Ideal)) :
    StableHlo.after hostOps0_2 Wv (Proc.devRef .tc main_v6) = Wv (Proc.devRef .tc main_v6) := by
  after_results
theorem keep_hostOps0_2_main_arg0 (Wv : Valuation τ sig (Elt Ideal)) :
    StableHlo.after hostOps0_2 Wv (Proc.devRef .tc main_arg0) = Wv (Proc.devRef .tc main_arg0) := by
  after_results
theorem keep_hostOps0_2_main_arg2 (Wv : Valuation τ sig (Elt Ideal)) :
    StableHlo.after hostOps0_2 Wv (Proc.devRef .tc main_arg2) = Wv (Proc.devRef .tc main_arg2) := by
  after_results
theorem keep_hostOps0_2_main_arg3 (Wv : Valuation τ sig (Elt Ideal)) :
    StableHlo.after hostOps0_2 Wv (Proc.devRef .tc main_arg3) = Wv (Proc.devRef .tc main_arg3) := by
  after_results
theorem keep_hostOps0_2_main_arg4 (Wv : Valuation τ sig (Elt Ideal)) :
    StableHlo.after hostOps0_2 Wv (Proc.devRef .tc main_arg4) = Wv (Proc.devRef .tc main_arg4) := by
  after_results
theorem keep_hostOps0_2_main_arg5 (Wv : Valuation τ sig (Elt Ideal)) :
    StableHlo.after hostOps0_2 Wv (Proc.devRef .tc main_arg5) = Wv (Proc.devRef .tc main_arg5) := by
  after_results
theorem keep_hostOps1_main_v3 (Wv : Valuation τ sig (Elt Ideal)) :
    StableHlo.after hostOps1 Wv (Proc.devRef .tc main_v3) = Wv (Proc.devRef .tc main_v3) := by
  after_results
theorem keep_hostOps1_main_v6 (Wv : Valuation τ sig (Elt Ideal)) :
    StableHlo.after hostOps1 Wv (Proc.devRef .tc main_v6) = Wv (Proc.devRef .tc main_v6) := by
  after_results
theorem keep_hostOps1_main_v15 (Wv : Valuation τ sig (Elt Ideal)) :
    StableHlo.after hostOps1 Wv (Proc.devRef .tc main_v15) = Wv (Proc.devRef .tc main_v15) := by
  after_results
theorem keep_hostOps1_main_arg4 (Wv : Valuation τ sig (Elt Ideal)) :
    StableHlo.after hostOps1 Wv (Proc.devRef .tc main_arg4) = Wv (Proc.devRef .tc main_arg4) := by
  after_results
theorem keep_hostOps1_main_arg5 (Wv : Valuation τ sig (Elt Ideal)) :
    StableHlo.after hostOps1 Wv (Proc.devRef .tc main_arg5) = Wv (Proc.devRef .tc main_arg5) := by
  after_results
theorem keep_hostOps2_main_v15 (Wv : Valuation τ sig (Elt Ideal)) :
    StableHlo.after hostOps2 Wv (Proc.devRef .tc main_v15) = Wv (Proc.devRef .tc main_v15) := by
  after_results

/-! ## The buffer contents at the segment boundaries -/

section Run

variable (m : (ℓ : Loc nD τ sig) → Buf (Elt Ideal) ℓ) (ρ : Dev nD → PrngReg) (c : Dev nD)

/-- The source words, the target words and the per-node factors, as the first stretches of host operations leave them. -/
def SRC : IVec S340000 32 := W1 m ρ c (Proc.devRef .tc main_v3)
def DST : IVec S340000 32 := W1 m ρ c (Proc.devRef .tc main_v6)
def DINV : FVec Ideal S20000 .f32 := W2 m ρ c (Proc.devRef .tc main_v14)

/-! ### Arguments and index words, walked back to where they were written -/

theorem W3_arg0 : W3 m ρ c (Proc.devRef .tc main_arg0) = m ((c : Thread nD τ).loc main_arg0) :=
  (keep_hostOps0_2_main_arg0 _).trans ((keep_hostOps0_1_main_arg0 _).trans (keep_hostOps0_main_arg0 _))
theorem W3_arg2 : W3 m ρ c (Proc.devRef .tc main_arg2) = m ((c : Thread nD τ).loc main_arg2) :=
  (keep_hostOps0_2_main_arg2 _).trans ((keep_hostOps0_1_main_arg2 _).trans (keep_hostOps0_main_arg2 _))
theorem W3_arg3 : W3 m ρ c (Proc.devRef .tc main_arg3) = m ((c : Thread nD τ).loc main_arg3) :=
  (keep_hostOps0_2_main_arg3 _).trans ((keep_hostOps0_1_main_arg3 _).trans (keep_hostOps0_main_arg3 _))
theorem W3_arg4 : W3 m ρ c (Proc.devRef .tc main_arg4) = m ((c : Thread nD τ).loc main_arg4) :=
  (keep_hostOps0_2_main_arg4 _).trans ((keep_hostOps0_1_main_arg4 _).trans (keep_hostOps0_main_arg4 _))
theorem W3_arg5 : W3 m ρ c (Proc.devRef .tc main_arg5) = m ((c : Thread nD τ).loc main_arg5) :=
  (keep_hostOps0_2_main_arg5 _).trans ((keep_hostOps0_1_main_arg5 _).trans (keep_hostOps0_main_arg5 _))

theorem W4_arg3 : W4 m ρ c (Proc.devRef .tc main_arg3) = m ((c : Thread nD τ).loc main_arg3) :=
  (W4_of_ne m ρ c main_arg3 (by decide)).trans (W3_arg3 m ρ c)
theorem W5_arg4 : W5 m ρ c (Proc.devRef .tc main_arg4) = m ((c : Thread nD τ).loc main_arg4) :=
  (keep_hostOps1_main_arg4 _).trans ((W4_of_ne m ρ c main_arg4 (by decide)).trans (W3_arg4 m ρ c))
theorem W6_arg5 : W6 m ρ c (Proc.devRef .tc main_arg5) = m ((c : Thread nD τ).loc main_arg5) :=
  (W6_of_ne m ρ c main_arg5 (by decide)).trans ((keep_hostOps1_main_arg5 _).trans
    ((W4_of_ne m ρ c main_arg5 (by decide)).trans (W3_arg5 m ρ c)))

theorem W4_v3 : W4 m ρ c (Proc.devRef .tc main_v3) = SRC m ρ c :=
  (W4_of_ne m ρ c main_v3 (by decide)).trans ((keep_hostOps0_2_main_v3 _).trans (keep_hostOps0_1_main_v3 _))
theorem W4_v6 : W4 m ρ c (Proc.devRef .tc main_v6) = DST m ρ c :=
  (W4_of_ne m ρ c main_v6 (by decide)).trans ((keep_hostOps0_2_main_v6 _).trans (keep_hostOps0_1_main_v6 _))
theorem W6_v3 : W6 m ρ c (Proc.devRef .tc main_v3) = SRC m ρ c :=
  (W6_of_ne m ρ c main_v3 (by decide)).trans ((keep_hostOps1_main_v3 _).trans (W4_v3 m ρ c))
theorem W6_v6 : W6 m ρ c (Proc.devRef .tc main_v6) = DST m ρ c :=
  (W6_of_ne m ρ c main_v6 (by decide)).trans ((keep_hostOps1_main_v6 _).trans (W4_v6 m ρ c))

/-! ### The column of factors: written once, read by all three regions -/

theorem W3_v15 : W3 m ρ c (Proc.devRef .tc main_v15) = shapeCast S20000x1 (DINV m ρ c) shapeCasts_S20000_S20000x1 := by
  show StableHlo.after hostOps0_2 (W2 m ρ c) (Proc.devRef .tc main_v15) = shapeCast S20000x1 (W2 m ρ c (Proc.devRef .tc main_v14)) _
  generalize W2 m ρ c = Wv
  after_results
  try rfl
theorem W5_v15 : W5 m ρ c (Proc.devRef .tc main_v15) = W3 m ρ c (Proc.devRef .tc main_v15) :=
  (keep_hostOps1_main_v15 _).trans ((W4_arr m ρ c 2).trans (((dat0 (V3 m ρ) c).arrAt_in 2 rfl _).trans (A_eq0 (V3 m ρ) c 2)))
theorem W7_v15 : W7 m ρ c (Proc.devRef .tc main_v15) = W3 m ρ c (Proc.devRef .tc main_v15) :=
  (keep_hostOps2_main_v15 _).trans ((W6_arr m ρ c 2).trans (((dat1 (V5 m ρ) c).arrAt_in 2 rfl _).trans
    ((A_eq1 (V5 m ρ) c 2).trans (W5_v15 m ρ c))))

/-- The column of factors at row u is the factor of node u. -/
theorem W3_v15_apply (u : Fin 20000) : W3 m ρ c (Proc.devRef .tc main_v15) (ix2 u (0 : Fin 1)) = DINV m ρ c (ix1 u) := by
  rw [W3_v15]
  exact Cert.UnitAxes.cast_col_apply (DINV m ρ c) shapeCasts_S20000_S20000x1 u

/-! ### What the host operations before the second and third regions compute -/

theorem W5_v26 : W5 m ρ c (Proc.devRef .tc main_v26)
    = aggregate (SRC m ρ c) (DST m ρ c) (W4 m ρ c (Proc.devRef .tc main_v16)) := by
  rw [← W4_v3 m ρ c, ← W4_v6 m ρ c]
  show StableHlo.after hostOps1 (W4 m ρ c) (Proc.devRef .tc main_v26) = _
  generalize W4 m ρ c = Wv
  after_results
  try rfl
theorem W5_v27 : W5 m ρ c (Proc.devRef .tc main_v27)
    = shapeCast S1x256 (m ((c : Thread nD τ).loc main_arg3)) shapeCasts_S256_S1x256 := by
  rw [← W4_arg3 m ρ c]
  show StableHlo.after hostOps1 (W4 m ρ c) (Proc.devRef .tc main_v27) = _
  generalize W4 m ρ c = Wv
  after_results
  try rfl
theorem W7_v38 : W7 m ρ c (Proc.devRef .tc main_v38)
    = aggregate (SRC m ρ c) (DST m ρ c) (W6 m ρ c (Proc.devRef .tc main_v28)) := by
  rw [← W6_v3 m ρ c, ← W6_v6 m ρ c]
  show StableHlo.after hostOps2 (W6 m ρ c) (Proc.devRef .tc main_v38) = _
  generalize W6 m ρ c = Wv
  after_results
  try rfl
theorem W7_v39 : W7 m ρ c (Proc.devRef .tc main_v39)
    = shapeCast S1x256 (m ((c : Thread nD τ).loc main_arg5)) shapeCasts_S256_S1x256 := by
  rw [← W6_arg5 m ρ c]
  show StableHlo.after hostOps2 (W6 m ρ c) (Proc.devRef .tc main_v39) = _
  generalize W6 m ρ c = Wv
  after_results
  try rfl

/-! ### The arrays at an entry -/

/-- The argument arrays and the arrays between the regions, as functions into the extended reals. -/
abbrev aX : S20000x128.Idx → EReal := m ((c : Thread nD τ).loc main_arg0)
abbrev aW1 : S128x256.Idx → EReal := m ((c : Thread nD τ).loc main_arg2)
abbrev aB1 : S256.Idx → EReal := m ((c : Thread nD τ).loc main_arg3)
abbrev aW2 : S256x256.Idx → EReal := m ((c : Thread nD τ).loc main_arg4)
abbrev aB2 : S256.Idx → EReal := m ((c : Thread nD τ).loc main_arg5)
abbrev aY1 : S20000x256.Idx → EReal := W4 m ρ c (Proc.devRef .tc main_v16)
abbrev aA1 : S20000x256.Idx → EReal := W5 m ρ c (Proc.devRef .tc main_v26)
abbrev aY2 : S20000x256.Idx → EReal := W6 m ρ c (Proc.devRef .tc main_v28)
abbrev aA2 : S20000x256.Idx → EReal := W7 m ρ c (Proc.devRef .tc main_v38)
abbrev aOut : S20000x256.Idx → EReal := W8 m ρ c (Proc.devRef .tc main_v40)
abbrev aD : S20000.Idx → EReal := DINV m ρ c

/-- What the first region leaves: the dense map of the features, its rows scaled. -/
theorem Y1_apply (u : Fin 20000) (j : Fin 256) :
    aY1 m ρ c (ix2 u j) = (∑ i : Fin 128, aX m c (ix2 u i) * aW1 m c (ix2 i j)) * aD m ρ c (ix1 u) := by
  dsimp only [aY1, aX, aW1, aD]
  rw [show W4 m ρ c (Proc.devRef .tc main_v16) = Region0.G (V3 m ρ c main_arg0) (V3 m ρ c main_arg2) (V3 m ρ c main_v15)
    from (W4_arr m ρ c 3).trans (Region0.final (V3 m ρ) c), Region0.G_apply]
  dsimp only [V3]
  rw [W3_arg0, W3_arg2, W3_v15_apply]

/-- The first aggregate. -/
theorem A1_apply (v : Fin 20000) (j : Fin 256) :
    aA1 m ρ c (ix2 v j)
      = 0 + Cert.Gcn.agg (tgt (DST m ρ c)) (fun e => aY1 m ρ c (ix2 (srow (SRC m ρ c) e) j)) v := by
  dsimp only [aA1, aY1]
  rw [W5_v26]
  exact aggregate_apply _ _ _ v j

/-- What the second region leaves: the dense map of the rectified first layer, its rows scaled. -/
theorem Y2_apply (u : Fin 20000) (q : Fin 256) :
    aY2 m ρ c (ix2 u q)
      = (∑ j : Fin 256, max (aA1 m ρ c (ix2 u j) * aD m ρ c (ix1 u) + aB1 m c (ix1 j)) 0 * aW2 m c (ix2 j q))
        * aD m ρ c (ix1 u) := by
  dsimp only [aY2, aA1, aD, aB1, aW2]
  rw [show W6 m ρ c (Proc.devRef .tc main_v28)
      = Region1.G (V5 m ρ c main_v26) (V5 m ρ c main_v27) (V5 m ρ c main_v15) (V5 m ρ c main_arg4)
    from (W6_arr m ρ c 4).trans (Region1.final (V5 m ρ) c), Region1.G_apply]
  dsimp only [V5]
  rw [W5_v15, W3_v15_apply, W5_arg4, W5_v27]
  refine congrArg (· * DINV m ρ c (ix1 u)) (Finset.sum_congr rfl fun j _ => ?_)
  rw [shapeCast_a_1a_apply]

/-- The second aggregate. -/
theorem A2_apply (v : Fin 20000) (k : Fin 256) :
    aA2 m ρ c (ix2 v k)
      = 0 + Cert.Gcn.agg (tgt (DST m ρ c)) (fun e => aY2 m ρ c (ix2 (srow (SRC m ρ c) e) k)) v := by
  dsimp only [aA2, aY2]
  rw [W7_v38]
  exact aggregate_apply _ _ _ v k

/-- What the third region leaves: the second aggregate scaled, plus the second bias. -/
theorem OUT_apply (v : Fin 20000) (k : Fin 256) :
    aOut m ρ c (ix2 v k) = aA2 m ρ c (ix2 v k) * aD m ρ c (ix1 v) + aB2 m c (ix1 k) := by
  dsimp only [aOut, aA2, aD, aB2]
  rw [show W8 m ρ c (Proc.devRef .tc main_v40) = Region2.G (V7 m ρ c main_v38) (V7 m ρ c main_v15) (V7 m ρ c main_v39)
    from (W8_arr m ρ c 3).trans (Region2.final (V7 m ρ) c), Region2.G_apply]
  dsimp only [V7]
  rw [W7_v15, W3_v15_apply, W7_v39, shapeCast_a_1a_apply]

/-- The arguments as the specification takes them. -/
abbrev fX : Fin 20000 → Fin 128 → EReal := fun u j => aX m c (ix2 u j)
abbrev fW1 : Fin 128 → Fin 256 → EReal := fun j q => aW1 m c (ix2 j q)
abbrev fB1 : Fin 256 → EReal := fun j => aB1 m c (ix1 j)
abbrev fW2 : Fin 256 → Fin 256 → EReal := fun j q => aW2 m c (ix2 j q)
abbrev fB2 : Fin 256 → EReal := fun j => aB2 m c (ix1 j)
abbrev fD : Fin 20000 → EReal := fun u => aD m ρ c (ix1 u)
abbrev fT : Fin 340000 → Int := tgt (DST m ρ c)
abbrev fS : Fin 340000 → Fin 20000 := srow (SRC m ρ c)

theorem Y1_spec (u : Fin 20000) (j : Fin 256) :
    aY1 m ρ c (ix2 u j) = Cert.Gcn.scaled (Cert.Gcn.lin (fX m c) (fW1 m c)) (fD m ρ c) u j :=
  Y1_apply m ρ c u j

theorem A1_spec (v : Fin 20000) (j : Fin 256) :
    aA1 m ρ c (ix2 v j)
      = 0 + Cert.Gcn.agg (fT m ρ c) (fun e => Cert.Gcn.scaled (Cert.Gcn.lin (fX m c) (fW1 m c)) (fD m ρ c) (fS m ρ c e) j) v := by
  rw [A1_apply]
  refine congrArg (0 + ·) ?_
  unfold Cert.Gcn.agg
  exact Finset.sum_congr rfl fun e _ => Y1_spec m ρ c _ _

theorem Y2_spec (u : Fin 20000) (q : Fin 256) :
    aY2 m ρ c (ix2 u q)
      = Cert.Gcn.scaled (Cert.Gcn.lin (Cert.Gcn.relu (Cert.Gcn.kerLayer (fT m ρ c) (fS m ρ c) (fD m ρ c)
          (Cert.Gcn.scaled (Cert.Gcn.lin (fX m c) (fW1 m c)) (fD m ρ c)) (fB1 m c))) (fW2 m c)) (fD m ρ c) u q := by
  rw [Y2_apply]
  show _ = (∑ j : Fin 256, max ((0 + Cert.Gcn.agg (fT m ρ c)
      (fun e => Cert.Gcn.scaled (Cert.Gcn.lin (fX m c) (fW1 m c)) (fD m ρ c) (fS m ρ c e) j) u) * fD m ρ c u + fB1 m c j) 0
      * fW2 m c j q) * fD m ρ c u
  refine congrArg (· * fD m ρ c u) (Finset.sum_congr rfl fun j _ => ?_)
  rw [A1_spec]

theorem A2_spec (v : Fin 20000) (k : Fin 256) :
    aA2 m ρ c (ix2 v k)
      = 0 + Cert.Gcn.agg (fT m ρ c) (fun e => Cert.Gcn.scaled (Cert.Gcn.lin (Cert.Gcn.relu (Cert.Gcn.kerLayer (fT m ρ c) (fS m ρ c) (fD m ρ c)
          (Cert.Gcn.scaled (Cert.Gcn.lin (fX m c) (fW1 m c)) (fD m ρ c)) (fB1 m c))) (fW2 m c)) (fD m ρ c) (fS m ρ c e) k) v := by
  rw [A2_apply]
  refine congrArg (0 + ·) ?_
  unfold Cert.Gcn.agg
  exact Finset.sum_congr rfl fun e _ => Y2_spec m ρ c _ _

/-- THE RESULT ARRAY at an entry: the two-layer graph convolution on rows scaled beforehand. -/
theorem result_apply (v : Fin 20000) (k : Fin 256) :
    aOut m ρ c (ix2 v k)
      = Cert.Gcn.kerOut (fT m ρ c) (fS m ρ c) (fD m ρ c) (fX m c) (fW1 m c) (fB1 m c) (fW2 m c) (fB2 m c) v k := by
  rw [OUT_apply, A2_spec]
  rfl

end Run

end Cert.KernelIdeal.KValue

end
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.LibWordIndex.lean ====
/-
  Small numbers as 32-bit index words.

  An index computed in 32-bit words is read back by a gather as a SIGNED integer; jax first adds the
  axis' extent to a negative index. For a word that denotes a number below 2^31 neither matters: the
  signed reading is the number itself and the sign test is false. And 64 * r + w, computed in words
  for r < 16 and a word w below 64, denotes 64 r + w (nothing wraps).
-/
import Idealize.ShloMosaic.Lib.ValueIdx

open Idealize.ShloMosaic

namespace Cert.WordIndex

/-- The signed reading of a word below 2^31, as a natural number, is the number it denotes. -/
theorem toInt_toNat_of_lt (v : BitVec 32) (hv : v.toNat < 2 ^ 31) : v.toInt.toNat = v.toNat := by
  rw [BitVec.toInt_eq_toNat_cond]
  have : 2 * v.toNat < 2 ^ 32 := by omega
  rw [if_pos this]
  exact Int.toNat_natCast _

/-- A word below 2^31 is not negative: the select that would add the extent keeps the word. -/
theorem select_slt_zero (v a : BitVec 32) (hv : v.toNat < 2 ^ 31) :
    Scalar.select (IntOp.cmpi .slt v 0#32) a v = v := by
  have h : IntOp.cmpi .slt v 0#32 = 0#1 := by
    have hs : v.slt 0#32 = false := by
      rw [BitVec.slt, BitVec.toInt_eq_toNat_cond, if_pos (by omega : 2 * v.toNat < 2 ^ 32)]
      simp
    simp [IntOp.cmpi, hs]
  rw [h]
  exact ValueIdx.select_zero a v

/-- A counter below 2^32, as a word, denotes itself. -/
theorem toNat_ofNat_of_lt {k : ℕ} (hk : k < 2 ^ 32) : (BitVec.ofNat 32 k).toNat = k := by
  rw [BitVec.toNat_ofNat, Nat.mod_eq_of_lt hk]

/-- 64 r + w in words, for a row r < 16 and a column word w below 64, denotes 64 r + w. -/
theorem toNat_row_add (r : ℕ) (hr : r < 16) (w : BitVec 32) (hw : w.toNat < 64) :
    (IntOp.addi (IntOp.muli (BitVec.ofNat 32 r) 64#32) w).toNat = r * 64 + w.toNat := by
  show ((BitVec.ofNat 32 r) * 64#32 + w).toNat = _
  rw [BitVec.toNat_add, BitVec.toNat_mul, BitVec.toNat_ofNat]
  show (r % 2 ^ 32 * 64 % 2 ^ 32 + w.toNat) % 2 ^ 32 = _
  omega

end Cert.WordIndex
-- ==== Proof.RefSide.lean ====
/-
  The reference program read as the pure two-layer graph convolution.

  The reference's value at a node v and a column k is the specification's per-edge-weight arrangement, with the edge
  data (target word, source row, weight) read off the edge words; the weight of an edge into v is the product of the
  two per-node factors; and a per-node factor is nonnegative and never +inf.
-/
import proofs.«120154_j84559316124099_2_alg».proof.Proof.RefRead
import proofs.«120154_j84559316124099_2_alg».proof.Proof.Spec
import proofs.«120154_j84559316124099_2_alg».proof.Proof.LibRowTakeAdd
import proofs.«120154_j84559316124099_2_alg».proof.Proof.LibFlatTakePut
import proofs.«120154_j84559316124099_2_alg».proof.Proof.LibWordIndex
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.ReadP Cert.Gcn Idealize.ShloMosaic Idealize.ShloMosaic.ValueIdx

/-- The edge words. -/
abbrev EI := (⟨S2x320000, .i32⟩ : BufTy).Contents (Elt Ideal)

/-- The target word of edge e read signed (what the scatters compare with a row number). -/
def tgt (x1 : EI) (e : Fin 340000) : Int := (val_main_v6 (F := Ideal) x1 (ix1 e)).toInt

/-- The node whose row edge e reads: the source word, a negative word moved up by 20000, read signed and clamped
    into [0, 19999]. -/
def srow (x1 : EI) (e : Fin 340000) : Fin 20000 :=
  Cert.RowTakeAdd.takeRow 20000 (by norm_num) (val_main_v19 (F := Ideal) x1 (ix1 e))

/-- The per-node factor (inverse square root of the degree where the degree is positive, else 0). -/
def dinv (x1 : EI) (u : Fin 20000) : EReal := val_main_v14 (F := Ideal) x1 (ix1 u)

/-- The per-edge weight as the reference computes it. -/
def nrm (x1 : EI) (e : Fin 340000) : EReal := val_main_v29 (F := Ideal) x1 (ix1 e)

/-! ## The per-node factor is nonnegative and never +inf -/

/-- The inverse square root of a positive extended real is nonnegative. -/
theorem rsqrt_nonneg_of_pos {x : EReal} (h : 0 < x) : 0 ≤ Ideal.rsqrt x := by
  induction x using EReal.rec with
  | bot => exact absurd h (not_lt.mpr bot_le)
  | top => rw [Ideal.rsqrt_top]
  | coe r =>
    have hr : 0 < r := EReal.coe_pos.mp h
    rw [Ideal.rsqrt_coe, if_neg (not_lt.mpr hr.le), if_neg hr.ne']
    exact EReal.coe_nonneg.mpr (inv_nonneg.mpr (Real.sqrt_nonneg r))

/-- The inverse square root of a positive extended real is not +inf. -/
theorem rsqrt_ne_top_of_pos {x : EReal} (h : 0 < x) : Ideal.rsqrt x ≠ ⊤ := by
  induction x using EReal.rec with
  | bot => exact absurd h (not_lt.mpr bot_le)
  | top => rw [Ideal.rsqrt_top]; exact EReal.zero_ne_top
  | coe r =>
    have hr : 0 < r := EReal.coe_pos.mp h
    rw [Ideal.rsqrt_coe, if_neg (not_lt.mpr hr.le), if_neg hr.ne']
    exact EReal.coe_ne_top _

/-- The per-node factor, pointwise: the inverse square root of the degree where the degree is above zero, else zero. -/
theorem dinv_eq (x1 : EI) (u : Fin 20000) :
    dinv x1 u = Scalar.select (Ideal.cmp .ogt (val_main_v10 (F := Ideal) x1 (ix1 u)) 0)
      (Ideal.rsqrt (val_main_v10 (F := Ideal) x1 (ix1 u))) 0 := by
  unfold dinv
  rw [val_main_v14_apply, val_main_v12_apply, val_main_v13_apply, val_main_call0_v1_apply, val_main_call0_v0_apply,
    val_main_cst_2_apply, val_main_v11_apply, val_main_cst_1_apply]
  simp only [Ideal.ofBits_def, Ideal.ofBits_zero_f32, Ideal.cmpf_def, Ideal.hostUnary_rsqrt_def]

theorem dinv_nonneg (x1 : EI) (u : Fin 20000) : 0 ≤ dinv x1 u := by
  rw [dinv_eq]
  unfold Scalar.select Ideal.cmp
  by_cases h : (0 : EReal) < val_main_v10 (F := Ideal) x1 (ix1 u)
  · simp only [h, decide_true, BitVec.ofBool_true, if_true]
    exact rsqrt_nonneg_of_pos h
  · simp only [h, decide_false, BitVec.ofBool_false]
    rw [if_neg (by decide)]

theorem dinv_ne_top (x1 : EI) (u : Fin 20000) : dinv x1 u ≠ ⊤ := by
  rw [dinv_eq]
  unfold Scalar.select Ideal.cmp
  by_cases h : (0 : EReal) < val_main_v10 (F := Ideal) x1 (ix1 u)
  · simp only [h, decide_true, BitVec.ofBool_true, if_true]
    exact rsqrt_ne_top_of_pos h
  · simp only [h, decide_false, BitVec.ofBool_false]
    rw [if_neg (by decide)]
    exact EReal.zero_ne_top

/-! ## The weight of an edge into v is the product of the two per-node factors -/

/-- The three normalisations of the source words are one function of the edge words. -/
theorem v35_eq (x1 : EI) : val_main_v35 (F := Ideal) x1 = val_main_v19 (F := Ideal) x1 := rfl
theorem v53_eq (x1 : EI) : val_main_v53 (F := Ideal) x1 = val_main_v19 (F := Ideal) x1 := rfl

/-- The column index [e, 0] of a vector position e. -/
theorem colIdx_ix1 (e : Fin 340000) : Cert.FlatTakePut.colIdx (R := 340000) (ix1 e) = ix2 e (0 : Fin 1) := by
  funext a; refine Fin.ext ?_
  match a with
  | ⟨0, _⟩ => rfl
  | ⟨1, _⟩ => rfl

/-- The column of normalised source words at [e, 0] is the normalised source word of e. -/
theorem v20_col (x1 : EI) (e : Fin 340000) :
    val_main_v20 (F := Ideal) x1 (ix2 e (0 : Fin 1)) = val_main_v19 (F := Ideal) x1 (ix1 e) := by
  rw [val_main_v20_apply]
  refine congrArg (val_main_v19 (F := Ideal) x1) ?_
  funext a; refine Fin.ext ?_
  match a with
  | ⟨0, _⟩ => rfl

/-- The column of normalised target words at [e, 0] is the normalised target word of e. -/
theorem v27_col (x1 : EI) (e : Fin 340000) :
    val_main_v27 (F := Ideal) x1 (ix2 e (0 : Fin 1)) = val_main_v26 (F := Ideal) x1 (ix1 e) := by
  rw [val_main_v27_apply]
  refine congrArg (val_main_v26 (F := Ideal) x1) ?_
  funext a; refine Fin.ext ?_
  match a with
  | ⟨0, _⟩ => rfl

/-- The flat gather of the per-node factors takes one element per index word: its dimension numbers. -/
theorem gatherFlat_eq : gather_S20000_S340000x1_S340000_n_0_n_n_0_1_1
    = Cert.FlatTakePut.takeFlatDims 20000 340000 Facts₀.gather_S20000_S340000x1_S340000_n_0_n_n_0_1_1_wf := rfl

/-- The source factor of edge e: the per-node factor at the row the edge reads. -/
theorem v21_apply (x1 : EI) (e : Fin 340000) :
    val_main_v21 (F := Ideal) x1 (ix1 e) = dinv x1 (srow x1 e) := by
  unfold val_main_v21 dinv
  rw [gatherFlat_eq, Cert.FlatTakePut.gather_flat_apply (by norm_num)]
  refine congrArg (val_main_v14 (F := Ideal) x1) (congrArg ix1 (Fin.ext ?_))
  show min (val_main_v20 (F := Ideal) x1 (Cert.FlatTakePut.colIdx (ix1 e))).toInt.toNat (20000 - 1)
    = min (val_main_v19 (F := Ideal) x1 (ix1 e)).toInt.toNat (20000 - 1)
  rw [colIdx_ix1, v20_col]

/-- A word whose signed reading is a natural number is below 2^31. -/
theorem toNat_lt_of_toInt_eq (w : BitVec 32) (n : Nat) (h : w.toInt = (n : Int)) : w.toNat < 2 ^ 31 := by
  rw [BitVec.toInt_eq_toNat_cond] at h
  split at h <;> omega

/-- When the target word of e read signed is the node v, its normalisation keeps it. -/
theorem v26_of_tgt (x1 : EI) (e : Fin 340000) (v : Fin 20000) (h : tgt x1 e = (v.val : Int)) :
    val_main_v26 (F := Ideal) x1 (ix1 e) = val_main_v6 (F := Ideal) x1 (ix1 e) := by
  rw [val_main_v26_apply, val_main_v23_apply, val_main_v22_apply, val_main_c_4_apply]
  exact Cert.WordIndex.select_slt_zero _ _ (toNat_lt_of_toInt_eq _ _ h)

/-- The target factor of an edge e into v: the per-node factor at v. -/
theorem v28_apply (x1 : EI) (e : Fin 340000) (v : Fin 20000) (h : tgt x1 e = (v.val : Int)) :
    val_main_v28 (F := Ideal) x1 (ix1 e) = dinv x1 v := by
  unfold val_main_v28 dinv
  rw [gatherFlat_eq, Cert.FlatTakePut.gather_flat_apply (by norm_num)]
  refine congrArg (val_main_v14 (F := Ideal) x1) (congrArg ix1 (Fin.ext ?_))
  show min (val_main_v27 (F := Ideal) x1 (Cert.FlatTakePut.colIdx (ix1 e))).toInt.toNat (20000 - 1) = v.val
  rw [colIdx_ix1, v27_col, v26_of_tgt x1 e v h]
  have h' : (val_main_v6 (F := Ideal) x1 (ix1 e)).toInt = (v.val : Int) := h
  rw [h', Int.toNat_natCast]
  have := v.isLt
  omega

theorem nrm_eq (x1 : EI) (e : Fin 340000) (v : Fin 20000) (h : tgt x1 e = (v.val : Int)) :
    nrm x1 e = dinv x1 (srow x1 e) * dinv x1 v := by
  unfold nrm
  rw [val_main_v29_apply, v21_apply, v28_apply x1 e v h]
  rfl

/-! ## The reference, stage by stage, at explicit coordinates -/

section Stages
variable (x0 : (⟨S20000x128, .f32⟩ : BufTy).Contents (Elt Ideal)) (x1 : EI)
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- The row gathers take whole rows at a column of index words, the scatters add whole rows: their dimension numbers. -/
theorem gatherRows_eq : gather_S20000x256_S340000x1_S340000x256_1_0_n_n_0_1_1256
    = Cert.RowTakeAdd.rowGatherDims 20000 340000 256 Facts₀.gather_S20000x256_S340000x1_S340000x256_1_0_n_n_0_1_1256_wf := rfl
theorem scatterRows_eq : scatter_S20000x256_S340000x1_S340000x256_1_0_0_1
    = Cert.RowTakeAdd.rowScatterDims 20000 340000 256 Facts₀.scatter_S20000x256_S340000x1_S340000x256_1_0_0_1_wf := rfl

/-- The column of source words the first layer's gather reads, at [e, 0]. -/
theorem v36_col (e : Fin 340000) :
    val_main_v36 (F := Ideal) x1 (ix2 e (0 : Fin 1)) = val_main_v19 (F := Ideal) x1 (ix1 e) := by
  rw [val_main_v36_apply, v35_eq]
  refine congrArg (val_main_v19 (F := Ideal) x1) ?_
  funext a; refine Fin.ext ?_
  match a with
  | ⟨0, _⟩ => rfl

/-- The column of source words the second layer's gather reads, at [e, 0]. -/
theorem v54_col (e : Fin 340000) :
    val_main_v54 (F := Ideal) x1 (ix2 e (0 : Fin 1)) = val_main_v19 (F := Ideal) x1 (ix1 e) := by
  rw [val_main_v54_apply, v53_eq]
  refine congrArg (val_main_v19 (F := Ideal) x1) ?_
  funext a; refine Fin.ext ?_
  match a with
  | ⟨0, _⟩ => rfl

/-- The columns of target words the two scatters read, at [e, 0]: the target word of e. -/
theorem v42_col (e : Fin 340000) :
    (val_main_v42 (F := Ideal) x1 (ix2 e (0 : Fin 1))).toInt = tgt x1 e := by
  rw [val_main_v42_apply]
  unfold tgt
  refine congrArg (fun i => (val_main_v6 (F := Ideal) x1 i).toInt) ?_
  funext a; refine Fin.ext ?_
  match a with
  | ⟨0, _⟩ => rfl
theorem v60_col (e : Fin 340000) :
    (val_main_v60 (F := Ideal) x1 (ix2 e (0 : Fin 1))).toInt = tgt x1 e := by
  rw [val_main_v60_apply]
  unfold tgt
  refine congrArg (fun i => (val_main_v6 (F := Ideal) x1 i).toInt) ?_
  funext a; refine Fin.ext ?_
  match a with
  | ⟨0, _⟩ => rfl

/-- The first dense map at (u, k). -/
theorem v30_at (u : Fin 20000) (k : Fin 256) :
    val_main_v30 (F := Ideal) x0 x2 (ix2 u k) = lin (fun u j => x0 (ix2 u j)) (fun j k => x2 (ix2 j k)) u k := by
  rw [val_main_v30_apply]
  unfold lin
  refine Finset.sum_congr rfl fun j _ => ?_
  have el : lidx_main_v30 (ix2 u k) j = ix2 u j := by
    funext a; refine Fin.ext ?_
    match a with
    | ⟨0, _⟩ => rfl
    | ⟨1, _⟩ => rfl
  have er : ridx_main_v30 (ix2 u k) j = ix2 j k := by
    funext a; refine Fin.ext ?_
    match a with
    | ⟨0, _⟩ => rfl
    | ⟨1, _⟩ => rfl
  rw [el, er]

/-- The edge weights broadcast over the columns, at (e, k), in the two layers. -/
theorem v39_at (e : Fin 340000) (k : Fin 256) : val_main_v39 (F := Ideal) x1 (ix2 e k) = nrm x1 e := by
  rw [val_main_v39_apply, val_main_v38_apply]
  unfold nrm
  refine congrArg (val_main_v29 (F := Ideal) x1) ?_
  funext a; refine Fin.ext ?_
  match a with
  | ⟨0, _⟩ => rfl
theorem v57_at (e : Fin 340000) (k : Fin 256) : val_main_v57 (F := Ideal) x1 (ix2 e k) = nrm x1 e := by
  rw [val_main_v57_apply, val_main_v56_apply]
  unfold nrm
  refine congrArg (val_main_v29 (F := Ideal) x1) ?_
  funext a; refine Fin.ext ?_
  match a with
  | ⟨0, _⟩ => rfl

/-- The first layer's gathered rows at (e, k). -/
theorem v37_at (e : Fin 340000) (k : Fin 256) :
    val_main_v37 (F := Ideal) x0 x1 x2 (ix2 e k) = val_main_v30 (F := Ideal) x0 x2 (ix2 (srow x1 e) k) := by
  unfold val_main_v37
  rw [gatherRows_eq, Cert.RowTakeAdd.gather_rows_apply (by norm_num), v36_col]
  rfl

/-- The first layer's weighted rows at (e, k). -/
theorem v40_at (e : Fin 340000) (k : Fin 256) :
    val_main_v40 (F := Ideal) x0 x1 x2 (ix2 e k)
      = lin (fun u j => x0 (ix2 u j)) (fun j k => x2 (ix2 j k)) (srow x1 e) k * nrm x1 e := by
  rw [val_main_v40_apply, v37_at, v30_at, v39_at]
  rfl

/-- The bias rows at (v, k), in the two layers. -/
theorem v45_at (v : Fin 20000) (k : Fin 256) : val_main_v45 (F := Ideal) x3 (ix2 v k) = x3 (ix1 k) := by
  rw [val_main_v45_apply, val_main_v44_apply]
  refine congrArg x3 ?_
  funext a; refine Fin.ext ?_
  match a with
  | ⟨0, _⟩ => rfl
theorem v63_at (v : Fin 20000) (k : Fin 256) : val_main_v63 (F := Ideal) x5 (ix2 v k) = x5 (ix1 k) := by
  rw [val_main_v63_apply, val_main_v62_apply]
  refine congrArg x5 ?_
  funext a; refine Fin.ext ?_
  match a with
  | ⟨0, _⟩ => rfl

/-- The first layer's aggregate at (v, k). -/
theorem v43_at (v : Fin 20000) (k : Fin 256) :
    val_main_v43 (F := Ideal) x0 x1 x2 (ix2 v k)
      = 0 + agg (tgt x1) (fun e => lin (fun u j => x0 (ix2 u j)) (fun j k => x2 (ix2 j k)) (srow x1 e) k * nrm x1 e) v := by
  unfold val_main_v43
  rw [scatterRows_eq, Cert.RowTakeAdd.scatterAdd_rows_apply, val_main_v41_apply, val_main_cst_8_apply]
  unfold agg
  simp only [v42_col, v40_at, Ideal.ofBits_def, Ideal.ofBits_zero_f32]

/-- The first layer at (v, k). -/
theorem v46_at (v : Fin 20000) (k : Fin 256) :
    val_main_v46 (F := Ideal) x0 x1 x2 x3 (ix2 v k)
      = refLayer (tgt x1) (srow x1) (nrm x1) (lin (fun u j => x0 (ix2 u j)) (fun j k => x2 (ix2 j k)))
          (fun j => x3 (ix1 j)) v k := by
  rw [val_main_v46_apply, v43_at, v45_at]
  rfl

/-- The rectified first layer at (v, k). -/
theorem v47_at (v : Fin 20000) (k : Fin 256) :
    val_main_v47 (F := Ideal) x0 x1 x2 x3 (ix2 v k)
      = relu (refLayer (tgt x1) (srow x1) (nrm x1) (lin (fun u j => x0 (ix2 u j)) (fun j k => x2 (ix2 j k)))
          (fun j => x3 (ix1 j))) v k := by
  rw [val_main_v47_apply, v46_at, val_main_call1_v0_apply, val_main_call1_cst_apply]
  unfold relu
  simp only [Ideal.ofBits_def, Ideal.ofBits_zero_f32, Ideal.maximumf_def]

/-- The second dense map at (u, k). -/
theorem v48_at (u : Fin 20000) (k : Fin 256) :
    val_main_v48 (F := Ideal) x0 x1 x2 x3 x4 (ix2 u k)
      = lin (relu (refLayer (tgt x1) (srow x1) (nrm x1) (lin (fun u j => x0 (ix2 u j)) (fun j k => x2 (ix2 j k)))
          (fun j => x3 (ix1 j)))) (fun j k => x4 (ix2 j k)) u k := by
  rw [val_main_v48_apply]
  show _ = ∑ j : Fin 256, _
  refine Finset.sum_congr rfl fun j _ => ?_
  have el : lidx_main_v48 (ix2 u k) j = ix2 u j := by
    funext a; refine Fin.ext ?_
    match a with
    | ⟨0, _⟩ => rfl
    | ⟨1, _⟩ => rfl
  have er : ridx_main_v48 (ix2 u k) j = ix2 j k := by
    funext a; refine Fin.ext ?_
    match a with
    | ⟨0, _⟩ => rfl
    | ⟨1, _⟩ => rfl
  rw [el, er, v47_at]

/-- The second layer's gathered rows at (e, k). -/
theorem v55_at (e : Fin 340000) (k : Fin 256) :
    val_main_v55 (F := Ideal) x0 x1 x2 x3 x4 (ix2 e k) = val_main_v48 (F := Ideal) x0 x1 x2 x3 x4 (ix2 (srow x1 e) k) := by
  unfold val_main_v55
  rw [gatherRows_eq, Cert.RowTakeAdd.gather_rows_apply (by norm_num), v54_col]
  rfl

/-- The second layer's weighted rows at (e, k). -/
theorem v58_at (e : Fin 340000) (k : Fin 256) :
    val_main_v58 (F := Ideal) x0 x1 x2 x3 x4 (ix2 e k)
      = lin (relu (refLayer (tgt x1) (srow x1) (nrm x1) (lin (fun u j => x0 (ix2 u j)) (fun j k => x2 (ix2 j k)))
          (fun j => x3 (ix1 j)))) (fun j k => x4 (ix2 j k)) (srow x1 e) k * nrm x1 e := by
  rw [val_main_v58_apply, v55_at, v48_at, v57_at]
  rfl

/-- The second layer's aggregate at (v, k). -/
theorem v61_at (v : Fin 20000) (k : Fin 256) :
    val_main_v61 (F := Ideal) x0 x1 x2 x3 x4 (ix2 v k)
      = 0 + agg (tgt x1) (fun e => lin (relu (refLayer (tgt x1) (srow x1) (nrm x1)
          (lin (fun u j => x0 (ix2 u j)) (fun j k => x2 (ix2 j k))) (fun j => x3 (ix1 j)))) (fun j k => x4 (ix2 j k))
          (srow x1 e) k * nrm x1 e) v := by
  unfold val_main_v61
  rw [scatterRows_eq, Cert.RowTakeAdd.scatterAdd_rows_apply, val_main_v59_apply, val_main_cst_11_apply]
  unfold agg
  simp only [v60_col, v58_at, Ideal.ofBits_def, Ideal.ofBits_zero_f32]

end Stages

/-- The reference's value at node v and column k is the specification's per-edge-weight arrangement. -/
theorem ref_apply (x0 : (⟨S20000x128, .f32⟩ : BufTy).Contents (Elt Ideal)) (x1 : EI)
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (v : Fin 20000) (k : Fin 256) :
    val_main_v64 (F := Ideal) x0 x1 x2 x3 x4 x5 (ix2 v k)
      = refOut (tgt x1) (srow x1) (nrm x1) (fun u j => x0 (ix2 u j)) (fun j k => x2 (ix2 j k)) (fun j => x3 (ix1 j))
          (fun j k => x4 (ix2 j k)) (fun j => x5 (ix1 j)) v k := by
  rw [val_main_v64_apply, v61_at, v63_at]
  rfl

end Cert.ReferenceIdeal.RefSide

end
-- ==== Proof.Bridge.lean ====
/-
  The two idealized programs compute one function.

  Both programs build the same edge lists from the same words (the edge words followed by one self loop per node), the
  same degrees and the same per-node factor d (the inverse square root of a positive degree, else 0).  The kernel scales
  the rows of each layer's dense map by d before they are gathered and the aggregated rows by d afterwards; the reference
  multiplies every gathered row by its edge's weight d(source) · d(target).  An edge contributes to node v exactly when
  its target word read signed is v, and then its target factor is d v; d is nonnegative and never +inf, so it moves
  across the finite sum, and the product of extended reals is associative: the results agree at every entry.
-/
import proofs.«120154_j84559316124099_2_alg».proof.Proof.KernelRun
import proofs.«120154_j84559316124099_2_alg».proof.Proof.KernelValue
import proofs.«120154_j84559316124099_2_alg».proof.Proof.RefSide
import proofs.«120154_j84559316124099_2_alg».proof.Proof.Spec

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The kernel's target words are the reference's, as functions of the edge words. -/
theorem dst_eq : KValue.DST m ρ c = Cert.ReferenceIdeal.ReadP.val_main_v6 (F := Ideal) (m ((c : Thread nD τ).loc main_arg1)) := by
  unfold KValue.DST
  show StableHlo.after hostOps0 (W0 m ρ c) (Proc.devRef .tc main_v6) = _
  after_results
  rfl

/-- The kernel's source words, normalised, are the reference's. -/
theorem src_eq : KValue.normVec (KValue.SRC m ρ c)
    = Cert.ReferenceIdeal.ReadP.val_main_v19 (F := Ideal) (m ((c : Thread nD τ).loc main_arg1)) := by
  unfold KValue.SRC
  have h : W1 m ρ c (Proc.devRef .tc main_v3)
      = Cert.ReferenceIdeal.ReadP.val_main_v3 (F := Ideal) (m ((c : Thread nD τ).loc main_arg1)) := by
    show StableHlo.after hostOps0 (W0 m ρ c) (Proc.devRef .tc main_v3) = _
    after_results
    rfl
  rw [h]
  rfl

/-- The kernel's per-node factors are the reference's. -/
theorem dinv_eq : KValue.DINV m ρ c = Cert.ReferenceIdeal.ReadP.val_main_v14 (F := Ideal) (m ((c : Thread nD τ).loc main_arg1)) := by
  have hw : ∀ Wv : Valuation τ sig (Elt Ideal), StableHlo.after hostOps0_1 Wv (Proc.devRef .tc main_v14)
      = select (Wv (Proc.devRef .tc main_v12)) (Wv (Proc.devRef .tc main_v13))
          (broadcastInDim S20000 ![] bcast_S_S20000 (id (Wv (Proc.devRef .tc main_cst_2)))) := by
    intro Wv
    after_results
    try rfl
  have h12 : W1 m ρ c (Proc.devRef .tc main_v12)
      = Cert.ReferenceIdeal.ReadP.val_main_v12 (F := Ideal) (m ((c : Thread nD τ).loc main_arg1)) := by
    show StableHlo.after hostOps0 (W0 m ρ c) (Proc.devRef .tc main_v12) = _
    after_results
    rfl
  have h13 : W1 m ρ c (Proc.devRef .tc main_v13)
      = Cert.ReferenceIdeal.ReadP.val_main_v13 (F := Ideal) (m ((c : Thread nD τ).loc main_arg1)) := by
    show StableHlo.after hostOps0 (W0 m ρ c) (Proc.devRef .tc main_v13) = _
    after_results
    rfl
  have hc2 : W1 m ρ c (Proc.devRef .tc main_cst_2) = Cert.ReferenceIdeal.ReadP.val_main_cst_2 (F := Ideal) := by
    show StableHlo.after hostOps0 (W0 m ρ c) (Proc.devRef .tc main_cst_2) = _
    after_results
    rfl
  unfold KValue.DINV
  show StableHlo.after hostOps0_1 (W1 m ρ c) (Proc.devRef .tc main_v14) = _
  rw [hw, h12, h13, hc2]
  rfl

/-- THE TWO RESULTS AGREE at every entry. -/
theorem result_eq (x0 : (⟨Cert.ReferenceIdeal.S20000x128, .f32⟩ : BufTy).Contents (Elt Ideal))
    (x2 : (⟨Cert.ReferenceIdeal.S128x256, .f32⟩ : BufTy).Contents (Elt Ideal))
    (x3 : (⟨Cert.ReferenceIdeal.S256, .f32⟩ : BufTy).Contents (Elt Ideal))
    (x4 : (⟨Cert.ReferenceIdeal.S256x256, .f32⟩ : BufTy).Contents (Elt Ideal))
    (x5 : (⟨Cert.ReferenceIdeal.S256, .f32⟩ : BufTy).Contents (Elt Ideal))
    (h0 : x0 = m ((c : Thread nD τ).loc main_arg0)) (h2 : x2 = m ((c : Thread nD τ).loc main_arg2))
    (h3 : x3 = m ((c : Thread nD τ).loc main_arg3)) (h4 : x4 = m ((c : Thread nD τ).loc main_arg4))
    (h5 : x5 = m ((c : Thread nD τ).loc main_arg5)) :
    Cert.ReferenceIdeal.ReadP.val_main_v64 (F := Ideal) x0 (m ((c : Thread nD τ).loc main_arg1)) x2 x3 x4 x5
      = W8 m ρ c (Proc.devRef .tc main_v40) := by
  subst h0 h2 h3 h4 h5
  funext i
  obtain ⟨v, k, rfl⟩ : ∃ (v : Fin 20000) (k : Fin 256), i = ix2 v k := ⟨i 0, i 1, eq_ix2 i⟩
  refine (Cert.ReferenceIdeal.RefSide.ref_apply _ _ _ _ _ _ v k).trans ?_
  refine Eq.trans ?_ (KValue.result_apply m ρ c v k).symm
  have e1 : KValue.fT m ρ c = Cert.ReferenceIdeal.RefSide.tgt (m ((c : Thread nD τ).loc main_arg1)) := by
    show KValue.tgt (KValue.DST m ρ c) = _
    unfold KValue.tgt Cert.ReferenceIdeal.RefSide.tgt
    rw [dst_eq]
  have e2 : KValue.fS m ρ c = Cert.ReferenceIdeal.RefSide.srow (m ((c : Thread nD τ).loc main_arg1)) := by
    show KValue.srow (KValue.SRC m ρ c) = _
    unfold KValue.srow Cert.ReferenceIdeal.RefSide.srow
    rw [src_eq]
  have e3 : KValue.fD m ρ c = Cert.ReferenceIdeal.RefSide.dinv (m ((c : Thread nD τ).loc main_arg1)) := by
    show (fun u : Fin 20000 => KValue.DINV m ρ c (ix1 u)) = fun u => Cert.ReferenceIdeal.ReadP.val_main_v14 (F := Ideal) (m ((c : Thread nD τ).loc main_arg1)) (ix1 u)
    rw [dinv_eq]
  rw [e1, e2, e3]
  exact (congrFun (congrFun (Cert.Gcn.kerOut_eq_refOut _ _ _ _
    (Cert.ReferenceIdeal.RefSide.dinv_nonneg _) (Cert.ReferenceIdeal.RefSide.dinv_ne_top _)
    (fun e v h => Cert.ReferenceIdeal.RefSide.nrm_eq _ e v h) _ _ _ _ _) v) k).symm

end Cert.Bridge

end
-- ==== Proof.lean ====
/-
  The certificate of a two-layer graph convolution kernel against its reference.

  The kernel runs three pipelined regions among stretches of host operations; each program's frame claim is its run with
  the results dropped (the generated frames for the two kernel programs, the reference's run for the reference).  The
  ideal pass rewrote nothing, so the kernel's idealization is its own text read on the extended reals.  The algebraic
  claim: the idealized kernel's result array is the last segment boundary's contents at the result buffer
  (KernelRun), which entry by entry is the two-layer convolution on rows scaled beforehand (KernelValue); the idealized
  reference's is the same convolution with per-edge weights (RefSide); the two agree (Spec, Bridge).
-/
import proofs.«120154_j84559316124099_2_alg».proof.Defs
import proofs.«120154_j84559316124099_2_alg».proof.Proof.Gen.Kernel
import proofs.«120154_j84559316124099_2_alg».proof.Proof.Gen.Kernel.Skeleton
import proofs.«120154_j84559316124099_2_alg».proof.Proof.Gen.Kernel.Launch
import proofs.«120154_j84559316124099_2_alg».proof.Proof.Gen.Kernel.Points
import proofs.«120154_j84559316124099_2_alg».proof.Proof.Gen.Kernel.Frame
import proofs.«120154_j84559316124099_2_alg».proof.Proof.Gen.KernelIdeal
import proofs.«120154_j84559316124099_2_alg».proof.Proof.Gen.KernelIdeal.Skeleton
import proofs.«120154_j84559316124099_2_alg».proof.Proof.Gen.KernelIdeal.Launch
import proofs.«120154_j84559316124099_2_alg».proof.Proof.Gen.KernelIdeal.Points
import proofs.«120154_j84559316124099_2_alg».proof.Proof.Gen.KernelIdeal.Frame
import proofs.«120154_j84559316124099_2_alg».proof.Proof.Gen.ReferenceIdeal
import proofs.«120154_j84559316124099_2_alg».proof.Proof.Gen.Pre_finite_inputs
import proofs.«120154_j84559316124099_2_alg».proof.Proof.RefRun
import proofs.«120154_j84559316124099_2_alg».proof.Proof.RefRead
import proofs.«120154_j84559316124099_2_alg».proof.Proof.KernelRun
import proofs.«120154_j84559316124099_2_alg».proof.Proof.Bridge
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same result array: the kernel's is
    the last boundary's contents at its result buffer, the reference's the composed stages of the arguments, and the
    two are one function of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v40),
    Cert.KernelIdeal.RunValue.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).2.1]
  exact Cert.Bridge.result_eq m ρ c _ _ _ _ _ (hagree c).1 (hagree c).2.2.1 (hagree c).2.2.2.1 (hagree c).2.2.2.2.1
    (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
